-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x17x128x128 : Shape := ⟨5, ![16, 8, 17, 128, 128]⟩
abbrev S16x8x10x17x2 : Shape := ⟨5, ![16, 8, 10, 17, 2]⟩
abbrev S_ : Shape := ⟨0, ![]⟩

class Facts : Prop where
  bcast_S_S16x8x17x128x128 : S_.BroadcastsInDim S16x8x17x128x128 (![] : Fin 0 → Fin S16x8x17x128x128.rank)
  reducesTo_S16x8x17x128x128_S_d0_1_2_3_4 : S16x8x17x128x128.ReducesTo [0, 1, 2, 3, 4] S_
  h_S_ : 0 < S_.numel
  bcast_S_S16x8x10x17x2 : S_.BroadcastsInDim S16x8x10x17x2 (![] : Fin 0 → Fin S16x8x10x17x2.rank)
  reducesTo_S16x8x10x17x2_S_d0_1_2_3_4 : S16x8x10x17x2.ReducesTo [0, 1, 2, 3, 4] S_

variable [Facts]

def fn {F : FTy → Type} [FloatOps F] (main_arg0 : FVec F S16x8x17x128x128 .f32) (main_arg1 : FVec F S16x8x10x17x2 .f32) : IVec S_ 1 :=
  let main_v0 : FVec F S16x8x17x128x128 .f32 := Host.absf main_arg0
  let main_cst : FVec F S_ .f32 := constant S_ .f32 0x7F800000#32
  let main_v1 : FVec F S16x8x17x128x128 .f32 := broadcastInDim S16x8x17x128x128 ![] bcast_S_S16x8x17x128x128 main_cst
  let main_v2 : IVec S16x8x17x128x128 1 := cmpf .olt main_v0 main_v1
  let main_c : IVec S_ 1 := constantI S_ 1 1#1
  let main_v3 : IVec S_ 1 := (fun x v => Host.reduce IntOp.andi x v reducesTo_S16x8x17x128x128_S_d0_1_2_3_4 h_S_) main_v2 main_c
  let main_v4 : FVec F S16x8x10x17x2 .f32 := Host.absf main_arg1
  let main_cst_0 : FVec F S_ .f32 := constant S_ .f32 0x7F800000#32
  let main_v5 : FVec F S16x8x10x17x2 .f32 := broadcastInDim S16x8x10x17x2 ![] bcast_S_S16x8x10x17x2 main_cst_0
  let main_v6 : IVec S16x8x10x17x2 1 := cmpf .olt main_v4 main_v5
  let main_c_1 : IVec S_ 1 := constantI S_ 1 1#1
  let main_v7 : IVec S_ 1 := (fun x v => Host.reduce IntOp.andi x v reducesTo_S16x8x10x17x2_S_d0_1_2_3_4 h_S_) main_v6 main_c_1
  let main_v8 : IVec S_ 1 := andi main_v3 main_v7
  main_v8
-- ==== Kernel.lean ====
abbrev S16x8x17x128x128 : Shape := ⟨5, ![16, 8, 17, 128, 128]⟩
abbrev S16x8x10x17x2 : Shape := ⟨5, ![16, 8, 10, 17, 2]⟩
abbrev S128x17x128x128 : Shape := ⟨4, ![128, 17, 128, 128]⟩
abbrev S128x10x17x2 : Shape := ⟨4, ![128, 10, 17, 2]⟩
abbrev S_ : Shape := ⟨0, ![]⟩
abbrev S128x10x17x1 : Shape := ⟨4, ![128, 10, 17, 1]⟩
abbrev S128x10x17 : Shape := ⟨3, ![128, 10, 17]⟩
abbrev S128x17x10 : Shape := ⟨3, ![128, 17, 10]⟩
abbrev S128x2 : Shape := ⟨2, ![128, 2]⟩
abbrev S8x17x128x128 : Shape := ⟨4, ![8, 17, 128, 128]⟩
abbrev S8x17x10 : Shape := ⟨3, ![8, 17, 10]⟩
abbrev S8x2 : Shape := ⟨2, ![8, 2]⟩
abbrev S136x128x128 : Shape := ⟨3, ![136, 128, 128]⟩
abbrev S136x10 : Shape := ⟨2, ![136, 10]⟩
abbrev S136x10x128 : Shape := ⟨3, ![136, 10, 128]⟩
abbrev S136x10x1 : Shape := ⟨3, ![136, 10, 1]⟩
abbrev S8x10 : Shape := ⟨2, ![8, 10]⟩
abbrev S8x1x10 : Shape := ⟨3, ![8, 1, 10]⟩
abbrev S8 : Shape := ⟨1, ![8]⟩
abbrev S8x10x1 : Shape := ⟨3, ![8, 10, 1]⟩
abbrev S8x10x10 : Shape := ⟨3, ![8, 10, 10]⟩
abbrev S8x1 : Shape := ⟨2, ![8, 1]⟩
abbrev S128x1 : Shape := ⟨2, ![128, 1]⟩
abbrev S128 : Shape := ⟨1, ![128]⟩

abbrev nBuf : Space → Nat
  | .hbm => 67
  | .vmem => 10
  | .smem => 0
  | _ => 0

abbrev bufTy : (tb : Table) → Fin (tcTables nBuf tb) → BufTy
  | .hbm, ⟨0, _⟩ => ⟨S16x8x17x128x128, .f32⟩
  | .hbm, ⟨1, _⟩ => ⟨S16x8x10x17x2, .f32⟩
  | .hbm, ⟨2, _⟩ => ⟨S128x17x128x128, .f32⟩
  | .hbm, ⟨3, _⟩ => ⟨S128x10x17x2, .f32⟩
  | .hbm, ⟨4, _⟩ => ⟨S_, .f32⟩
  | .hbm, ⟨5, _⟩ => ⟨S128x10x17x2, .f32⟩
  | .hbm, ⟨6, _⟩ => ⟨S128x10x17x2, .f32⟩
  | .hbm, ⟨7, _⟩ => ⟨S128x10x17x2, .f32⟩
  | .hbm, ⟨8, _⟩ => ⟨S128x10x17x2, .i32⟩
  | .hbm, ⟨9, _⟩ => ⟨S128x10x17x1, .i32⟩
  | .hbm, ⟨10, _⟩ => ⟨S128x10x17, .i32⟩
  | .hbm, ⟨11, _⟩ => ⟨S128x10x17x1, .i32⟩
  | .hbm, ⟨12, _⟩ => ⟨S128x10x17, .i32⟩
  | .hbm, ⟨13, _⟩ => ⟨S_, .i32⟩
  | .hbm, ⟨14, _⟩ => ⟨S128x10x17, .i32⟩
  | .hbm, ⟨15, _⟩ => ⟨S128x10x17, .i1⟩
  | .hbm, ⟨16, _⟩ => ⟨S_, .i32⟩
  | .hbm, ⟨17, _⟩ => ⟨S128x10x17, .i32⟩
  | .hbm, ⟨18, _⟩ => ⟨S128x10x17, .i1⟩
  | .hbm, ⟨19, _⟩ => ⟨S128x10x17, .i1⟩
  | .hbm, ⟨20, _⟩ => ⟨S_, .i32⟩
  | .hbm, ⟨21, _⟩ => ⟨S128x10x17, .i32⟩
  | .hbm, ⟨22, _⟩ => ⟨S128x10x17, .i1⟩
  | .hbm, ⟨23, _⟩ => ⟨S128x10x17, .i1⟩
  | .hbm, ⟨24, _⟩ => ⟨S_, .i32⟩
  | .hbm, ⟨25, _⟩ => ⟨S128x10x17, .i32⟩
  | .hbm, ⟨26, _⟩ => ⟨S128x10x17, .i1⟩
  | .hbm, ⟨27, _⟩ => ⟨S128x10x17, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S128x10x17, .i32⟩
  | .hbm, ⟨32, _⟩ => ⟨S128x10x17, .i32⟩
  | .hbm, ⟨33, _⟩ => ⟨S_, .i32⟩
  | .hbm, ⟨34, _⟩ => ⟨S128x10x17, .i32⟩
  | .hbm, ⟨35, _⟩ => ⟨S128x10x17, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S128x10x17, .i32⟩
  | .hbm, ⟨40, _⟩ => ⟨S128x10x17, .i32⟩
  | .hbm, ⟨41, _⟩ => ⟨S_, .i32⟩
  | .hbm, ⟨42, _⟩ => ⟨S128x10x17, .i32⟩
  | .hbm, ⟨43, _⟩ => ⟨S128x10x17, .i32⟩
  | .hbm, ⟨44, _⟩ => ⟨S128x17x10, .i32⟩
  | .hbm, ⟨45, _⟩ => ⟨S128x17x10, .i32⟩
  | .hbm, ⟨46, _⟩ => ⟨S128x10x17, .f32⟩
  | .hbm, ⟨47, _⟩ => ⟨S128x17x10, .f32⟩
  | .hbm, ⟨48, _⟩ => ⟨S128x2, .f32⟩
  | .hbm, ⟨49, _⟩ => ⟨S128x1, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S128x1, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S8x17x128x128, .f32⟩
  | .local _ .vmem, ⟨1, _⟩ => ⟨S8x17x128x128, .f32⟩
  | .local _ .vmem, ⟨2, _⟩ => ⟨S8x17x10, .i32⟩
  | .local _ .vmem, ⟨3, _⟩ => ⟨S8x17x10, .i32⟩
  | .local _ .vmem, ⟨4, _⟩ => ⟨S8x17x10, .i32⟩
  | .local _ .vmem, ⟨5, _⟩ => ⟨S8x17x10, .i32⟩
  | .local _ .vmem, ⟨6, _⟩ => ⟨S8x17x10, .f32⟩
  | .local _ .vmem, ⟨7, _⟩ => ⟨S8x17x10, .f32⟩
  | .local _ .vmem, ⟨8, _⟩ => ⟨S8x2, .f32⟩
  | .local _ .vmem, ⟨9, _⟩ => ⟨S8x2, .f32⟩
  | _, _ => ⟨S16x8x17x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_c_4 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v21 : Ref sig .tc := ⟨.hbm, 35, rfl⟩
abbrev main_c_5 : Ref sig .tc := ⟨.hbm, 36, rfl⟩
abbrev main_c_6 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_10 : Ref sig .tc := ⟨.hbm, 60, rfl⟩
abbrev main_v36 : Ref sig .tc := ⟨.hbm, 61, rfl⟩
abbrev main_v37 : Ref sig .tc := ⟨.hbm, 62, rfl⟩
abbrev main_cst_11 : Ref sig .tc := ⟨.hbm, 63, rfl⟩
abbrev main_v38 : Ref sig .tc := ⟨.hbm, 64, rfl⟩
abbrev main_cst_12 : Ref sig .tc := ⟨.hbm, 65, rfl⟩
abbrev main_v39 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x17x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x17x10 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x17x10 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x17x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x8x17x128x128_S128x17x128x128 : S16x8x17x128x128.ShapeCasts S128x17x128x128
  shapeCasts_S16x8x10x17x2_S128x10x17x2 : S16x8x10x17x2.ShapeCasts S128x10x17x2
  bcast_S_S128x10x17x2 : S_.BroadcastsInDim S128x10x17x2 (![] : Fin 0 → Fin S128x10x17x2.rank)
  slices_S128x10x17x2_S128x10x17x1_0_0_0_0 : S128x10x17x2.Slices ![0, 0, 0, 0] S128x10x17x1
  shapeCasts_S128x10x17x1_S128x10x17 : S128x10x17x1.ShapeCasts S128x10x17
  slices_S128x10x17x2_S128x10x17x1_0_0_0_1 : S128x10x17x2.Slices ![0, 0, 0, 1] S128x10x17x1
  bcast_S_S128x10x17 : S_.BroadcastsInDim S128x10x17 (![] : Fin 0 → Fin S128x10x17.rank)
  transposes_S128x10x17_S128x17x10_0_2_1 : S128x10x17.Transposes [0, 2, 1] S128x17x10
  inb_S8x17x128x128_S8x17x128x128_0_0_0_0 : ∀ a, (![0, 0, 0, 0] : Fin 4 → Nat) a + S8x17x128x128.size a ≤ S8x17x128x128.size a
  h_S8x17x128x128 : 0 < S8x17x128x128.numel
  shapeCasts_S8x17x128x128_S8x17x128x128 : S8x17x128x128.ShapeCasts S8x17x128x128
  shapeCasts_S8x17x128x128_S136x128x128 : S8x17x128x128.ShapeCasts S136x128x128
  bitsLt_bf16_f32 : FTy.bits .bf16 < FTy.bits .f32
  inb_S8x17x10_S8x17x10_0_0_0 : ∀ a, (![0, 0, 0] : Fin 3 → Nat) a + S8x17x10.size a ≤ S8x17x10.size a
  h_S8x17x10 : 0 < S8x17x10.numel
  shapeCasts_S8x17x10_S8x17x10 : S8x17x10.ShapeCasts S8x17x10
  shapeCasts_S8x17x10_S136x10 : S8x17x10.ShapeCasts S136x10
  iota_S136x10x128_d2_w32 : S136x10x128.Iotas .tc 32 [2]
  shapeCasts_S136x10_S136x10x1 : S136x10.ShapeCasts S136x10x1
  broadcasts_S136x10x1_S136x10x128 : S136x10x1.Broadcasts S136x10x128
  natLt_1_32 : 1 < 32
  reduces_S136x10x128_S136x10 : S136x10x128.Reduces [2] S136x10
  shapeCasts_S136x10_S8x17x10 : S136x10.ShapeCasts S8x17x10
  reduces_S8x17x10_S8x10 : S8x17x10.Reduces [1] S8x10
  shapeCasts_S8x10_S8x1x10 : S8x10.ShapeCasts S8x1x10
  broadcasts_S8x1x10_S8x17x10 : S8x1x10.Broadcasts S8x17x10
  reduces_S8x10_S8 : S8x10.Reduces [1] S8
  shapeCasts_S8x10_S8x10x1 : S8x10.ShapeCasts S8x10x1
  broadcasts_S8x1x10_S8x10x10 : S8x1x10.Broadcasts S8x10x10
  broadcasts_S8x10x1_S8x10x10 : S8x10x1.Broadcasts S8x10x10
  iota_S8x10x10_d1_w32 : S8x10x10.Iotas .tc 32 [1]
  iota_S8x10x10_d2_w32 : S8x10x10.Iotas .tc 32 [2]
  reduces_S8x10x10_S8x10 : S8x10x10.Reduces [2] S8x10
  shapeCasts_S8_S8x1 : S8.ShapeCasts S8x1
  concatenates_S8x1_S8x1_S8x2_d1 : Shape.Concatenates [S8x1, S8x1] S8x2 1
  inb_S8x2_S8x2_0_0 : ∀ a, (![0, 0] : Fin 2 → Nat) a + S8x2.size a ≤ S8x2.size a
  h_S8x2 : 0 < S8x2.numel
  slices_S128x2_S128x1_0_0 : S128x2.Slices ![0, 0] S128x1
  shapeCasts_S128x1_S128 : S128x1.ShapeCasts S128
  bcast_S_S128 : S_.BroadcastsInDim S128 (![] : Fin 0 → Fin S128.rank)
  reducesTo_S128_S_d0 : S128.ReducesTo [0] S_
  h_S_ : 0 < S_.numel
  slices_S128x2_S128x1_0_1 : S128x2.Slices ![0, 1] S128x1
  dot_S136x10x128_S136x128x128_S136x10x128_2_1_1_2_0_0_wf : DotDims.WF S136x10x128 S136x128x128 S136x10x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x17x128x128.size a ≤ S128x17x128x128.size a
  hwx0_0 : ∀ i : grid0.Coords, EltTy.bits .f32 = 32 ∨ (Rect.block (s := S128x17x128x128) S8x17x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x17x10.size a ≤ S128x17x10.size a
  hwx0_1 : ∀ i : grid0.Coords, EltTy.bits .i32 = 32 ∨ (Rect.block (s := S128x17x10) S8x17x10.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x17x10.size a ≤ S128x17x10.size a
  hwx0_2 : ∀ i : grid0.Coords, EltTy.bits .i32 = 32 ∨ (Rect.block (s := S128x17x10) S8x17x10.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x17x10.size a ≤ S128x17x10.size a
  hwx0_3 : ∀ i : grid0.Coords, EltTy.bits .f32 = 32 ∨ (Rect.block (s := S128x17x10) S8x17x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x2.size a ≤ S128x2.size a
  hwx0_4 : ∀ i : grid0.Coords, EltTy.bits .f32 = 32 ∨ (Rect.block (s := S128x2) S8x2.size (cc0_transform_4 i) (hinb0_4 i)).WholeWords (EltTy.packing .f32)

variable [Facts₀]

def dot_S136x10x128_S136x128x128_S136x10x128_2_1_1_2_0_0 : DotDims S136x10x128 S136x128x128 S136x10x128 where
  lhsContracting := [2]
  rhsContracting := [1]
  lhsNonContracting := [1]
  rhsNonContracting := [2]
  lhsBatch := [0]
  rhsBatch := [0]
  wf := dot_S136x10x128_S136x128x128_S136x10x128_2_1_1_2_0_0_wf

abbrev win0_0 : Pipeline.Window sig grid0 :=
  Pipeline.Window.ofSpec (Memref.whole main_v0) S8x17x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S8x17x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S8x17x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S8x17x10.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S8x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x8x17x128x128 : Shape := ⟨5, ![16, 8, 17, 128, 128]⟩
abbrev S16x8x10x17x2 : Shape := ⟨5, ![16, 8, 10, 17, 2]⟩
abbrev S128x17x128x128 : Shape := ⟨4, ![128, 17, 128, 128]⟩
abbrev S128x10x17x2 : Shape := ⟨4, ![128, 10, 17, 2]⟩
abbrev S_ : Shape := ⟨0, ![]⟩
abbrev S128x10x17x1 : Shape := ⟨4, ![128, 10, 17, 1]⟩
abbrev S128x10x17 : Shape := ⟨3, ![128, 10, 17]⟩
abbrev S128 : Shape := ⟨1, ![128]⟩
abbrev S128x1x1 : Shape := ⟨3, ![128, 1, 1]⟩
abbrev S17 : Shape := ⟨1, ![17]⟩
abbrev S1x1x17 : Shape := ⟨3, ![1, 1, 17]⟩
abbrev S128x10x17x4 : Shape := ⟨4, ![128, 10, 17, 4]⟩
abbrev S128x10 : Shape := ⟨2, ![128, 10]⟩
abbrev S128x10x1 : Shape := ⟨3, ![128, 10, 1]⟩
abbrev S128x1x10 : Shape := ⟨3, ![128, 1, 10]⟩
abbrev S128x10x10 : Shape := ⟨3, ![128, 10, 10]⟩
abbrev S10x10 : Shape := ⟨2, ![10, 10]⟩
abbrev S1x10x10 : Shape := ⟨3, ![1, 10, 10]⟩

abbrev nBuf : Space → Nat
  | .hbm => 178
  | .vmem => 0
  | .smem => 0
  | _ => 0

abbrev hbmTy0_0 (i : Nat) : BufTy := match i % 128 with
  | 0 => ⟨S16x8x17x128x128, .f32⟩
  | 1 => ⟨S16x8x10x17x2, .f32⟩
  | 2 => ⟨S128x17x128x128, .f32⟩
  | 3 => ⟨S128x10x17x2, .f32⟩
  | 4 => ⟨S_, .f32⟩
  | 5 => ⟨S128x10x17x2, .f32⟩
  | 6 => ⟨S128x10x17x2, .f32⟩
  | 7 => ⟨S128x10x17x2, .f32⟩
  | 8 => ⟨S128x10x17x2, .i32⟩
  | 9 => ⟨S128x10x17x1, .i32⟩
  | 10 => ⟨S128x10x17, .i32⟩
  | 11 => ⟨S128x10x17x1, .i32⟩
  | 12 => ⟨S128x10x17, .i32⟩
  | 13 => ⟨S_, .i32⟩
  | 14 => ⟨S128x10x17, .i32⟩
  | 15 => ⟨S128x10x17, .i1⟩
  | 16 => ⟨S_, .i32⟩
  | 17 => ⟨S128x10x17, .i32⟩
  | 18 => ⟨S128x10x17, .i1⟩
  | 19 => ⟨S128x10x17, .i1⟩
  | 20 => ⟨S_, .i32⟩
  | 21 => ⟨S128x10x17, .i32⟩
  | 22 => ⟨S128x10x17, .i1⟩
  | 23 => ⟨S128x10x17, .i1⟩
  | 24 => ⟨S_, .i32⟩
  | 25 => ⟨S128x10x17, .i32⟩
  | 26 => ⟨S128x10x17, .i1⟩
  | 27 => ⟨S128x10x17, .i1⟩
  | 28 => ⟨S_, .i32⟩
  | 29 => ⟨S_, .i32⟩
  | 30 => ⟨S_, .i32⟩
  | 31 => ⟨S128x10x17, .i32⟩
  | 32 => ⟨S128x10x17, .i32⟩
  | 33 => ⟨S_, .i32⟩
  | 34 => ⟨S128x10x17, .i32⟩
  | 35 => ⟨S128x10x17, .i32⟩
  | 36 => ⟨S_, .i32⟩
  | 37 => ⟨S_, .i32⟩
  | 38 => ⟨S_, .i32⟩
  | 39 => ⟨S128x10x17, .i32⟩
  | 40 => ⟨S128x10x17, .i32⟩
  | 41 => ⟨S_, .i32⟩
  | 42 => ⟨S128x10x17, .i32⟩
  | 43 => ⟨S128x10x17, .i32⟩
  | 44 => ⟨S128, .i32⟩
  | 45 => ⟨S128x1x1, .i32⟩
  | 46 => ⟨S17, .i32⟩
  | 47 => ⟨S1x1x17, .i32⟩
  | 48 => ⟨S_, .i32⟩
  | 49 => ⟨S128x1x1, .i32⟩
  | 50 => ⟨S128x1x1, .i1⟩
  | 51 => ⟨S_, .i32⟩
  | 52 => ⟨S128x1x1, .i32⟩
  | 53 => ⟨S128x1x1, .i32⟩
  | 54 => ⟨S128x1x1, .i32⟩
  | 55 => ⟨S_, .i32⟩
  | 56 => ⟨S1x1x17, .i32⟩
  | 57 => ⟨S1x1x17, .i1⟩
  | 58 => ⟨S_, .i32⟩
  | 59 => ⟨S1x1x17, .i32⟩
  | 60 => ⟨S1x1x17, .i32⟩
  | 61 => ⟨S1x1x17, .i32⟩
  | 62 => ⟨S_, .i32⟩
  | 63 => ⟨S128x10x17, .i32⟩
  | 64 => ⟨S128x10x17, .i1⟩
  | 65 => ⟨S_, .i32⟩
  | 66 => ⟨S128x10x17, .i32⟩
  | 67 => ⟨S128x10x17, .i32⟩
  | 68 => ⟨S128x10x17, .i32⟩
  | 69 => ⟨S_, .i32⟩
  | 70 => ⟨S128x10x17, .i32⟩
  | 71 => ⟨S128x10x17, .i1⟩
  | 72 => ⟨S_, .i32⟩
  | 73 => ⟨S128x10x17, .i32⟩
  | 74 => ⟨S128x10x17, .i32⟩
  | 75 => ⟨S128x10x17, .i32⟩
  | 76 => ⟨S128x10x17, .i32⟩
  | 77 => ⟨S128x10x17, .i32⟩
  | 78 => ⟨S128x10x17x1, .i32⟩
  | 79 => ⟨S128x10x17x1, .i32⟩
  | 80 => ⟨S128x10x17x1, .i32⟩
  | 81 => ⟨S128x10x17x1, .i32⟩
  | 82 => ⟨S128x10x17x4, .i32⟩
  | 83 => ⟨S128x10x17, .f32⟩
  | 84 => ⟨S128x10x17, .f32⟩
  | 85 => ⟨S_, .f32⟩
  | 86 => ⟨S128x10, .f32⟩
  | 87 => ⟨S_, .f32⟩
  | 88 => ⟨S128x10, .f32⟩
  | 89 => ⟨S128x10, .f32⟩
  | 90 => ⟨S128x10x17, .f32⟩
  | 91 => ⟨S_, .f32⟩
  | 92 => ⟨S128x10, .f32⟩
  | 93 => ⟨S128x10, .f32⟩
  | 94 => ⟨S128x10x1, .f32⟩
  | 95 => ⟨S128x10x17, .f32⟩
  | 96 => ⟨S128x10x17, .f32⟩
  | 97 => ⟨S128x10x17, .f32⟩
  | 98 => ⟨S128x10x17, .f32⟩
  | 99 => ⟨S_, .f32⟩
  | 100 => ⟨S128x10, .f32⟩
  | 101 => ⟨S128x10, .f32⟩
  | 102 => ⟨S_, .f32⟩
  | 103 => ⟨S128x10, .f32⟩
  | 104 => ⟨S128x10, .i1⟩
  | 105 => ⟨S_, .f32⟩
  | 106 => ⟨S_, .f32⟩
  | 107 => ⟨S128x10, .f32⟩
  | 108 => ⟨S128x10, .f32⟩
  | 109 => ⟨S_, .f32⟩
  | 110 => ⟨S128, .f32⟩
  | 111 => ⟨S_, .f32⟩
  | 112 => ⟨S128, .f32⟩
  | 113 => ⟨S128, .f32⟩
  | 114 => ⟨S_, .f32⟩
  | 115 => ⟨S128x10, .f32⟩
  | 116 => ⟨S128x10, .i1⟩
  | 117 => ⟨S128x10, .f32⟩
  | 118 => ⟨S128x1x10, .f32⟩
  | 119 => ⟨S128x10x1, .f32⟩
  | 120 => ⟨S128x10x10, .f32⟩
  | 121 => ⟨S128x10x10, .f32⟩
  | 122 => ⟨S128x10x10, .f32⟩
  | 123 => ⟨S128x10x1, .f32⟩
  | 124 => ⟨S128x1x10, .f32⟩
  | 125 => ⟨S128x10x10, .f32⟩
  | 126 => ⟨S128x10x10, .f32⟩
  | 127 => ⟨S128x10x10, .f32⟩
  | _ => ⟨S16x8x17x128x128, .f32⟩

abbrev hbmTy0_1 (i : Nat) : BufTy := match i % 128 with
  | 0 => ⟨S10x10, .i32⟩
  | 1 => ⟨S10x10, .i32⟩
  | 2 => ⟨S_, .i32⟩
  | 3 => ⟨S10x10, .i32⟩
  | 4 => ⟨S10x10, .i32⟩
  | 5 => ⟨S10x10, .i1⟩
  | 6 => ⟨S10x10, .f32⟩
  | 7 => ⟨S_, .f32⟩
  | 8 => ⟨S10x10, .f32⟩
  | 9 => ⟨S10x10, .f32⟩
  | 10 => ⟨S1x10x10, .f32⟩
  | 11 => ⟨S128x10x10, .f32⟩
  | 12 => ⟨S128x10x10, .f32⟩
  | 13 => ⟨S128x10x10, .f32⟩
  | 14 => ⟨S_, .f32⟩
  | 15 => ⟨S128x10x10, .f32⟩
  | 16 => ⟨S128x10x10, .f32⟩
  | 17 => ⟨S_, .f32⟩
  | 18 => ⟨S128x10x10, .f32⟩
  | 19 => ⟨S128x10x10, .f32⟩
  | 20 => ⟨S128x10x10, .f32⟩
  | 21 => ⟨S_, .f32⟩
  | 22 => ⟨S128, .f32⟩
  | 23 => ⟨S_, .f32⟩
  | 24 => ⟨S128, .f32⟩
  | 25 => ⟨S128, .i1⟩
  | 26 => ⟨S_, .f32⟩
  | 27 => ⟨S128, .f32⟩
  | 28 => ⟨S_, .f32⟩
  | 29 => ⟨S128, .f32⟩
  | 30 => ⟨S128, .f32⟩
  | 31 => ⟨S128, .f32⟩
  | 32 => ⟨S_, .f32⟩
  | 33 => ⟨S_, .f32⟩
  | 34 => ⟨S128, .f32⟩
  | 35 => ⟨S128, .f32⟩
  | 36 => ⟨S_, .f32⟩
  | 37 => ⟨S128, .f32⟩
  | 38 => ⟨S128, .f32⟩
  | 39 => ⟨S_, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S_, .f32⟩
  | 47 => ⟨S_, .f32⟩
  | 48 => ⟨S_, .f32⟩
  | 49 => ⟨S_, .f32⟩
  | _ => ⟨S16x8x17x128x128, .f32⟩

abbrev hbmTy (i : Nat) : BufTy := match i / 128 with
  | 0 => hbmTy0_0 i
  | 1 => hbmTy0_1 i
  | _ => ⟨S16x8x17x128x128, .f32⟩

abbrev bufTy : (tb : Table) → Fin (tcTables nBuf tb) → BufTy
  | .hbm, ⟨i, _⟩ => hbmTy i
  | _, _ => ⟨S16x8x17x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_c_4 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v21 : Ref sig .tc := ⟨.hbm, 35, rfl⟩
abbrev main_c_5 : Ref sig .tc := ⟨.hbm, 36, rfl⟩
abbrev main_c_6 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_c_10 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_c_12 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_13 : Ref sig .tc := ⟨.hbm, 69, rfl⟩
abbrev main_v42 : Ref sig .tc := ⟨.hbm, 70, rfl⟩
abbrev main_v43 : Ref sig .tc := ⟨.hbm, 71, rfl⟩
abbrev main_c_14 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_cst_16 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_17 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_18 : Ref sig .tc := ⟨.hbm, 99, rfl⟩
abbrev main_v67 : Ref sig .tc := ⟨.hbm, 100, rfl⟩
abbrev main_v68 : Ref sig .tc := ⟨.hbm, 101, rfl⟩
abbrev main_cst_19 : Ref sig .tc := ⟨.hbm, 102, rfl⟩
abbrev main_v69 : Ref sig .tc := ⟨.hbm, 103, rfl⟩
abbrev main_v70 : Ref sig .tc := ⟨.hbm, 104, rfl⟩
abbrev main_cst_20 : Ref sig .tc := ⟨.hbm, 105, rfl⟩
abbrev main_call3_v0 : Ref sig .tc := ⟨.hbm, 106, rfl⟩
abbrev main_call3_v1 : Ref sig .tc := ⟨.hbm, 107, rfl⟩
abbrev main_v71 : Ref sig .tc := ⟨.hbm, 108, rfl⟩
abbrev main_cst_21 : Ref sig .tc := ⟨.hbm, 109, rfl⟩
abbrev main_v72 : Ref sig .tc := ⟨.hbm, 110, rfl⟩
abbrev main_cst_22 : Ref sig .tc := ⟨.hbm, 111, rfl⟩
abbrev main_v73 : Ref sig .tc := ⟨.hbm, 112, rfl⟩
abbrev main_v74 : Ref sig .tc := ⟨.hbm, 113, rfl⟩
abbrev main_cst_23 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_24 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_25 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_26 : Ref sig .tc := ⟨.hbm, 142, rfl⟩
abbrev main_v100 : Ref sig .tc := ⟨.hbm, 143, rfl⟩
abbrev main_v101 : Ref sig .tc := ⟨.hbm, 144, rfl⟩
abbrev main_cst_27 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_28 : Ref sig .tc := ⟨.hbm, 149, rfl⟩
abbrev main_v105 : Ref sig .tc := ⟨.hbm, 150, rfl⟩
abbrev main_cst_29 : Ref sig .tc := ⟨.hbm, 151, rfl⟩
abbrev main_v106 : Ref sig .tc := ⟨.hbm, 152, rfl⟩
abbrev main_v107 : Ref sig .tc := ⟨.hbm, 153, rfl⟩
abbrev main_cst_30 : Ref sig .tc := ⟨.hbm, 154, rfl⟩
abbrev main_v108 : Ref sig .tc := ⟨.hbm, 155, rfl⟩
abbrev main_cst_31 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_32 : Ref sig .tc := ⟨.hbm, 160, rfl⟩
abbrev main_call4_v0 : Ref sig .tc := ⟨.hbm, 161, rfl⟩
abbrev main_call4_v1 : Ref sig .tc := ⟨.hbm, 162, rfl⟩
abbrev main_v112 : Ref sig .tc := ⟨.hbm, 163, rfl⟩
abbrev main_cst_33 : Ref sig .tc := ⟨.hbm, 164, rfl⟩
abbrev main_v113 : Ref sig .tc := ⟨.hbm, 165, rfl⟩
abbrev main_v114 : Ref sig .tc := ⟨.hbm, 166, rfl⟩
abbrev main_cst_34 : Ref sig .tc := ⟨.hbm, 167, rfl⟩
abbrev main_v115 : Ref sig .tc := ⟨.hbm, 168, rfl⟩
abbrev main_cst_35 : Ref sig .tc := ⟨.hbm, 169, rfl⟩
abbrev main_v116 : Ref sig .tc := ⟨.hbm, 170, rfl⟩
abbrev main_cst_36 : Ref sig .tc := ⟨.hbm, 171, rfl⟩
abbrev main_v117 : Ref sig .tc := ⟨.hbm, 172, rfl⟩
abbrev main_v118 : Ref sig .tc := ⟨.hbm, 173, rfl⟩
abbrev main_cst_37 : Ref sig .tc := ⟨.hbm, 174, rfl⟩
abbrev main_v119 : Ref sig .tc := ⟨.hbm, 175, rfl⟩
abbrev main_cst_38 : Ref sig .tc := ⟨.hbm, 176, rfl⟩
abbrev main_v120 : Ref sig .tc := ⟨.hbm, 177, rfl⟩

abbrev nD : Nat := 1
abbrev τ : Topo := Topo.v7x

variable {F : FTy → Type} [FloatOps F]

class Facts₀ : Prop where
  shapeCasts_S16x8x17x128x128_S128x17x128x128 : S16x8x17x128x128.ShapeCasts S128x17x128x128
  shapeCasts_S16x8x10x17x2_S128x10x17x2 : S16x8x10x17x2.ShapeCasts S128x10x17x2
  bcast_S_S128x10x17x2 : S_.BroadcastsInDim S128x10x17x2 (![] : Fin 0 → Fin S128x10x17x2.rank)
  slices_S128x10x17x2_S128x10x17x1_0_0_0_0 : S128x10x17x2.Slices ![0, 0, 0, 0] S128x10x17x1
  shapeCasts_S128x10x17x1_S128x10x17 : S128x10x17x1.ShapeCasts S128x10x17
  slices_S128x10x17x2_S128x10x17x1_0_0_0_1 : S128x10x17x2.Slices ![0, 0, 0, 1] S128x10x17x1
  bcast_S_S128x10x17 : S_.BroadcastsInDim S128x10x17 (![] : Fin 0 → Fin S128x10x17.rank)
  bcast_S128_S128x1x1_0 : S128.BroadcastsInDim S128x1x1 (![0] : Fin 1 → Fin S128x1x1.rank)
  bcast_S17_S1x1x17_2 : S17.BroadcastsInDim S1x1x17 (![2] : Fin 1 → Fin S1x1x17.rank)
  bcast_S_S128x1x1 : S_.BroadcastsInDim S128x1x1 (![] : Fin 0 → Fin S128x1x1.rank)
  bcast_S_S1x1x17 : S_.BroadcastsInDim S1x1x17 (![] : Fin 0 → Fin S1x1x17.rank)
  bcast_S128x1x1_S128x10x17_0_1_2 : S128x1x1.BroadcastsInDim S128x10x17 (![0, 1, 2] : Fin 3 → Fin S128x10x17.rank)
  bcast_S1x1x17_S128x10x17_0_1_2 : S1x1x17.BroadcastsInDim S128x10x17 (![0, 1, 2] : Fin 3 → Fin S128x10x17.rank)
  bcast_S128x10x17_S128x10x17x1_0_1_2 : S128x10x17.BroadcastsInDim S128x10x17x1 (![0, 1, 2] : Fin 3 → Fin S128x10x17x1.rank)
  concatenates_S128x10x17x1_S128x10x17x1_S128x10x17x1_S128x10x17x1_S128x10x17x4_d3 : Shape.Concatenates [S128x10x17x1, S128x10x17x1, S128x10x17x1, S128x10x17x1] S128x10x17x4 3
  reducesTo_S128x10x17_S128x10_d2 : S128x10x17.ReducesTo [2] S128x10
  h_S_ : 0 < S_.numel
  bcast_S_S128x10 : S_.BroadcastsInDim S128x10 (![] : Fin 0 → Fin S128x10.rank)
  bcast_S128x10_S128x10x1_0_1 : S128x10.BroadcastsInDim S128x10x1 (![0, 1] : Fin 2 → Fin S128x10x1.rank)
  bcast_S128x10x1_S128x10x17_0_1_2 : S128x10x1.BroadcastsInDim S128x10x17 (![0, 1, 2] : Fin 3 → Fin S128x10x17.rank)
  reducesTo_S128x10_S128_d1 : S128x10.ReducesTo [1] S128
  bcast_S_S128 : S_.BroadcastsInDim S128 (![] : Fin 0 → Fin S128.rank)
  bcast_S128x10_S128x1x10_0_2 : S128x10.BroadcastsInDim S128x1x10 (![0, 2] : Fin 2 → Fin S128x1x10.rank)
  bcast_S128x1x10_S128x10x10_0_1_2 : S128x1x10.BroadcastsInDim S128x10x10 (![0, 1, 2] : Fin 3 → Fin S128x10x10.rank)
  bcast_S128x10x1_S128x10x10_0_1_2 : S128x10x1.BroadcastsInDim S128x10x10 (![0, 1, 2] : Fin 3 → Fin S128x10x10.rank)
  bcast_S_S10x10 : S_.BroadcastsInDim S10x10 (![] : Fin 0 → Fin S10x10.rank)
  bcast_S10x10_S1x10x10_1_2 : S10x10.BroadcastsInDim S1x10x10 (![1, 2] : Fin 2 → Fin S1x10x10.rank)
  bcast_S1x10x10_S128x10x10_0_1_2 : S1x10x10.BroadcastsInDim S128x10x10 (![0, 1, 2] : Fin 3 → Fin S128x10x10.rank)
  bcast_S_S128x10x10 : S_.BroadcastsInDim S128x10x10 (![] : Fin 0 → Fin S128x10x10.rank)
  reducesTo_S128x10x10_S128_d1_2 : S128x10x10.ReducesTo [1, 2] S128
  reducesTo_S128_S_d0 : S128.ReducesTo [0] S_
  gather_S128x17x128x128_S128x10x17x4_S128x10x17_n_0123_n_n_0123_3_1111_wf : GatherDims.WF S128x17x128x128 S128x10x17x4 S128x10x17 [] [0, 1, 2, 3] [] [0, 1, 2, 3] [] 3 ![1, 1, 1, 1]

variable [Facts₀]

def gather_S128x17x128x128_S128x10x17x4_S128x10x17_n_0123_n_n_0123_3_1111 : GatherDims S128x17x128x128 S128x10x17x4 S128x10x17 where
  offsetDims := []
  collapsedSliceDims := [0, 1, 2, 3]
  operandBatchingDims := []
  startIndicesBatchingDims := []
  startIndexMap := [0, 1, 2, 3]
  indexVectorDim := 3
  sliceSizes := ![1, 1, 1, 1]
  wf := gather_S128x17x128x128_S128x10x17x4_S128x10x17_n_0123_n_n_0123_3_1111_wf

class Facts : Prop extends Facts₀ where

variable [Facts]
-- ==== Proof.LibOneHot.lean ====
/-
  One-hot sums on the extended reals, over the library only.

  A one-bit word reads as the extended real 0 or 1 (`bit`), whether it is widened to 32 bits and read signed or read
  unsigned directly. A comparison "coordinate h = word y" of a coordinate below 128 written as a 32-bit number with a
  32-bit word below 128 is the bit of `h = y.toNat`. Hence a sum over the 128 coordinates against such a one-hot
  row keeps one term: as a product with the 0/1 factor (`sum_onehot_mul`: a row selected by a matrix product with a
  one-hot row) and as a select against the zero word (`sum_onehot_select`: a lane kept by a masked lane sum). Both
  hold for arbitrary extended reals, infinities included, because `0 * a = 0` and `0 + a = a` there: a gather written
  as one-hot products and masked sums needs no finiteness of the gathered array.
-/
import Idealize.ShloMosaic.PureOps.Ideal.Laws
import Idealize.ShloMosaic.Lib.ValueIdx

noncomputable section

namespace Cert.GroupLoss

open Idealize.ShloMosaic

/-- The f32 word of 0.0, which is the extended real 0. -/
abbrev w0 : EReal := Ideal.ofBits .f32 0x00000000#32

theorem w0_eq : w0 = 0 := Ideal.ofBits_zero_f32

/-- A one-bit word as the extended real 0 or 1. -/
def bit (b : BitVec 1) : EReal := ((b.toNat : ℝ) : EReal)

theorem bit_zero : bit 0#1 = 0 := by simp [bit]
theorem bit_one : bit 1#1 = 1 := by simp [bit]

theorem toInt_setWidth_bit (b : BitVec 1) : (b.setWidth 32).toInt = (b.toNat : ℤ) := by
  rcases BitVec.eq_zero_or_eq_one b with h | h <;> subst h <;> decide

/-- A one-bit word widened to 32 bits and read as a signed integer is the bit. -/
theorem sitofp_extui_bit (b : BitVec 1) : FloatOps.sitofp (F := Ideal) .f32 (b.setWidth 32) = bit b := by
  show (((b.setWidth 32).toInt : ℝ) : EReal) = ((b.toNat : ℝ) : EReal)
  rw [toInt_setWidth_bit, Int.cast_natCast]

/-- A one-bit word read as an unsigned integer is the bit. -/
theorem uitofp_bit (b : BitVec 1) : FloatOps.uitofp (F := Ideal) .f32 b = bit b := rfl

/-- The comparison of a coordinate below 128, written as a 32-bit number, with a 32-bit word below 128. -/
theorem cmpi_eq_ofNat {y : BitVec 32} (hy : y.toNat < 128) (h : Fin 128) :
    IntOp.cmpi .eq (BitVec.ofNat 32 h.val) y = if h = ⟨y.toNat, hy⟩ then 1#1 else 0#1 := by
  have hh : h.val < 128 := h.isLt
  by_cases e : h = ⟨y.toNat, hy⟩
  · rw [if_pos e]
    have hb : (BitVec.ofNat 32 h.val == y) = true := by
      rw [beq_iff_eq]
      apply BitVec.eq_of_toNat_eq
      rw [BitVec.toNat_ofNat, e]
      show y.toNat % 2 ^ 32 = y.toNat
      omega
    show BitVec.ofBool (BitVec.ofNat 32 h.val == y) = 1#1
    rw [hb]; rfl
  · rw [if_neg e]
    have hb : (BitVec.ofNat 32 h.val == y) = false := by
      rw [beq_eq_false_iff_ne]
      intro c
      apply e
      apply Fin.ext
      have := congrArg BitVec.toNat c
      rw [BitVec.toNat_ofNat] at this
      show h.val = y.toNat
      omega
    show BitVec.ofBool (BitVec.ofNat 32 h.val == y) = 0#1
    rw [hb]; rfl

/-- A sum over 128 coordinates against the 0/1 row that marks the coordinate `y` keeps the term at `y`. -/
theorem sum_onehot_mul {y : BitVec 32} (hy : y.toNat < 128) (f : Fin 128 → EReal) :
    ∑ h : Fin 128, bit (IntOp.cmpi .eq (BitVec.ofNat 32 h.val) y) * f h = f ⟨y.toNat, hy⟩ := by
  rw [Finset.sum_eq_single (⟨y.toNat, hy⟩ : Fin 128)]
  · rw [cmpi_eq_ofNat hy, if_pos rfl, bit_one, one_mul]
  · intro h _ hne
    rw [cmpi_eq_ofNat hy, if_neg hne, bit_zero, zero_mul]
  · intro hn; exact absurd (Finset.mem_univ _) hn

/-- A sum over 128 coordinates of the terms selected where the coordinate is `x`, zero elsewhere, is the term at `x`. -/
theorem sum_onehot_select {x : BitVec 32} (hx : x.toNat < 128) (g : Fin 128 → EReal) :
    ∑ w : Fin 128, Scalar.select (IntOp.cmpi .eq (BitVec.ofNat 32 w.val) x) (g w) w0 = g ⟨x.toNat, hx⟩ := by
  rw [Finset.sum_eq_single (⟨x.toNat, hx⟩ : Fin 128)]
  · rw [cmpi_eq_ofNat hx, if_pos rfl, ValueIdx.select_one]
  · intro w _ hne
    rw [cmpi_eq_ofNat hx, if_neg hne, ValueIdx.select_zero, w0_eq]
  · intro hn; exact absurd (Finset.mem_univ _) hn

end Cert.GroupLoss

end
-- ==== Proof.Spec.lean ====
/-
  The grouping loss of ONE sample, on the extended reals.

  A sample has 10 persons with 17 keypoints each; `v p k` is the embedding read at person `p`'s keypoint `k` and
  `m p k` its validity weight. A person's embedding is the weighted mean of its keypoints' (the weight sum floored at
  one); the WITHIN loss is the mean over the 10 persons of each present person's weighted mean squared deviation from
  its embedding; the ACROSS loss is the mean over ordered pairs of distinct present persons of the hinge
  `max (1 - |e_j - e_i|) 0`. Both programs compute exactly these formulas, with the same words for 0, 1 and 10, so the
  formulas are stated once here, over the words, and neither side evaluates a word.

  The one-bit words read as 0 or 1 (`bit`) and the zero word `w0` come from the one-hot module.
-/
import proofs.«164034_j30863634989288_2_alg».proof.Proof.LibOneHot

noncomputable section

namespace Cert.GroupLoss

open Idealize.ShloMosaic

/-- The f32 words both programs write for 1.0 and 10.0 (0.0 is `w0`). -/
abbrev w1 : EReal := Ideal.ofBits .f32 0x3F800000#32
abbrev w10 : EReal := Ideal.ofBits .f32 0x41200000#32

/-- Whether two persons are one, as the comparison of their numbers written in 32 bits. -/
def same (i j : Fin 10) : BitVec 1 := IntOp.cmpi .eq (BitVec.ofNat 32 i.val) (BitVec.ofNat 32 j.val)

section Sample

variable (v m : Fin 10 → Fin 17 → EReal)

/-- The weight a person's keypoints carry together. -/
def cnt (p : Fin 10) : EReal := ∑ k : Fin 17, m p k
/-- That weight floored at one: the divisor of the person's means. -/
def safe (p : Fin 10) : EReal := max (cnt m p) w1
/-- The person's embedding: the weighted mean of its keypoints' embeddings. -/
def emb (p : Fin 10) : EReal := Ideal.div (∑ k : Fin 17, v p k * m p k) (safe m p)
/-- The weighted mean squared deviation of the person's keypoints from its embedding. -/
def spread (p : Fin 10) : EReal :=
  Ideal.div (∑ k : Fin 17, (v p k - emb v m p) * (v p k - emb v m p) * m p k) (safe m p)
/-- Whether the person carries any weight. -/
def present (p : Fin 10) : BitVec 1 := Ideal.cmp .ogt (cnt m p) w0
/-- The within loss: the present persons' spreads, summed and divided by 10. -/
def within1 : EReal := Ideal.div (∑ p : Fin 10, Scalar.select (present m p) (spread v m p) w0) w10
/-- 1 for an ordered pair of distinct present persons, 0 otherwise. -/
def pair (i j : Fin 10) : EReal := bit (present m i) * bit (present m j) * (w1 - bit (same i j))
/-- The pair's hinge on the distance of the two embeddings. -/
def hinge (i j : Fin 10) : EReal :=
  max (w1 - max (emb v m j - emb v m i) (-(emb v m j - emb v m i))) w0 * pair m i j
/-- The number of ordered pairs of distinct present persons. -/
def pairs : EReal := ∑ i : Fin 10, ∑ j : Fin 10, pair m i j
/-- The across loss: the hinges' sum over the number of pairs floored at one, where there is a pair; else 0. -/
def across1 : EReal :=
  Scalar.select (Ideal.cmp .ogt (pairs m) w0)
    (Ideal.div (∑ i : Fin 10, ∑ j : Fin 10, hinge v m i j) (max (pairs m) w1)) w0

end Sample

end Cert.GroupLoss

end
-- ==== Proof.KLayout.lean ====
/-
  How the kernel's block-shaped values are laid out, read at an index.

  The body works on a block of 8 samples. It merges (sample, key point) into one axis of 8 * 17 = 136 rows
  — row `17 r + k` is sample `r`'s key point `k` — and back; it repeats a per-(sample, person) value along the
  key-point axis or along one of the two person axes of a pair; and it joins the two per-sample losses as the two
  columns of the [8, 2] block it stores. Each of these only moves entries: here is where each entry comes from.
-/
import proofs.«164034_j30863634989288_2_alg».proof.KernelIdeal
import Idealize.ShloMosaic.Lib.Pipeline.Value
import Idealize.ShloMosaic.Lib.ValueLayout
import Idealize.ShloMosaic.Lib.ValueIdx

noncomputable section

namespace Cert.GroupLoss.Ker

open Idealize.ShloMosaic Idealize.ShloMosaic.ValueIdx Cert.KernelIdeal

variable {α : Type}

/-- Row `17 r + k` of the merged axis: sample `r`'s key point `k`. -/
def row (r : Fin 8) (k : Fin 17) : Fin 136 := ⟨r.val * 17 + k.val, by have := r.isLt; have := k.isLt; omega⟩

/-- The heat maps with (sample, key point) merged: row `17 r + k` is map (r, k). -/
theorem merge_maps (x : S8x17x128x128.Idx → α) (h1 : S8x17x128x128.ShapeCasts S8x17x128x128)
    (h2 : S8x17x128x128.ShapeCasts S136x128x128) (r : Fin 8) (k : Fin 17) (h w : Fin 128) :
    shapeCast S136x128x128 (shapeCast S8x17x128x128 x h1) h2 (ix3 (row r k) h w) = x (ix4 r k h w) := by
  rw [shapeCast_self]
  exact shapeCast_apply x h2 _ _ (by
    rw [Shape.rowMajor_val_four, Shape.rowMajor_val_three]
    show ((r.val * 17 + k.val) * 128 + h.val) * 128 + w.val = ((r.val * 17 + k.val) * 128 + h.val) * 128 + w.val
    rfl)

/-- A per-(sample, key point, person) array with (sample, key point) merged. -/
theorem merge_rows (x : S8x17x10.Idx → α) (h1 : S8x17x10.ShapeCasts S8x17x10) (h2 : S8x17x10.ShapeCasts S136x10)
    (r : Fin 8) (k : Fin 17) (p : Fin 10) :
    shapeCast S136x10 (shapeCast S8x17x10 x h1) h2 (ix2 (row r k) p) = x (ix3 r k p) := by
  rw [shapeCast_self]
  exact shapeCast_apply x h2 _ _ (by
    rw [Shape.rowMajor_val_three, Shape.rowMajor_val_two]
    show (r.val * 17 + k.val) * 10 + p.val = (r.val * 17 + k.val) * 10 + p.val
    rfl)

/-- The merged rows split back into (sample, key point). -/
theorem split_rows (y : S136x10.Idx → α) (h1 : S136x10.ShapeCasts S8x17x10) (r : Fin 8) (k : Fin 17) (p : Fin 10) :
    shapeCast S8x17x10 y h1 (ix3 r k p) = y (ix2 (row r k) p) :=
  shapeCast_apply y h1 _ _ (by
    rw [Shape.rowMajor_val_three, Shape.rowMajor_val_two]
    show (r.val * 17 + k.val) * 10 + p.val = (r.val * 17 + k.val) * 10 + p.val
    rfl)

/-- A per-(row, person) coordinate repeated along the 128 lanes. -/
theorem along_lanes (y : S136x10.Idx → α) (h1 : S136x10.ShapeCasts S136x10x1) (h2 : S136x10x1.Broadcasts S136x10x128)
    (b : Fin 136) (p : Fin 10) (h : Fin 128) :
    broadcastTo S136x10x128 (shapeCast S136x10x1 y h1) h2 (ix3 b p h) = y (ix2 b p) := by
  refine (broadcastTo_apply _ h2 (ix3 b p h) (ix3 b p (0 : Fin 1)) fun ax => ?_).trans ?_
  · match ax with
    | ⟨0, _⟩ => rfl
    | ⟨1, _⟩ => rfl
    | ⟨2, _⟩ => rfl
  · exact shapeCast_apply y h1 _ _ (by
      rw [Shape.rowMajor_val_three, Shape.rowMajor_val_two]
      show b.val * 10 + p.val = (b.val * 10 + p.val) * 1 + 0
      omega)

/-- A per-(sample, person) value repeated along the key-point axis. -/
theorem along_keypoints (v : S8x10.Idx → α) (h1 : S8x10.ShapeCasts S8x1x10) (h2 : S8x1x10.Broadcasts S8x17x10)
    (r : Fin 8) (k : Fin 17) (p : Fin 10) :
    broadcastTo S8x17x10 (shapeCast S8x1x10 v h1) h2 (ix3 r k p) = v (ix2 r p) := by
  refine (broadcastTo_apply _ h2 (ix3 r k p) (ix3 r (0 : Fin 1) p) fun ax => ?_).trans ?_
  · match ax with
    | ⟨0, _⟩ => rfl
    | ⟨1, _⟩ => rfl
    | ⟨2, _⟩ => rfl
  · exact shapeCast_apply v h1 _ _ (by
      rw [Shape.rowMajor_val_three, Shape.rowMajor_val_two]
      show r.val * 10 + p.val = (r.val * 1 + 0) * 10 + p.val
      omega)

/-- A per-(sample, person) value over pairs (i, j), taken at the SECOND person. -/
theorem at_second (v : S8x10.Idx → α) (h1 : S8x10.ShapeCasts S8x1x10) (h2 : S8x1x10.Broadcasts S8x10x10)
    (r : Fin 8) (i j : Fin 10) :
    broadcastTo S8x10x10 (shapeCast S8x1x10 v h1) h2 (ix3 r i j) = v (ix2 r j) := by
  refine (broadcastTo_apply _ h2 (ix3 r i j) (ix3 r (0 : Fin 1) j) fun ax => ?_).trans ?_
  · match ax with
    | ⟨0, _⟩ => rfl
    | ⟨1, _⟩ => rfl
    | ⟨2, _⟩ => rfl
  · exact shapeCast_apply v h1 _ _ (by
      rw [Shape.rowMajor_val_three, Shape.rowMajor_val_two]
      show r.val * 10 + j.val = (r.val * 1 + 0) * 10 + j.val
      omega)

/-- A per-(sample, person) value over pairs (i, j), taken at the FIRST person. -/
theorem at_first (v : S8x10.Idx → α) (h1 : S8x10.ShapeCasts S8x10x1) (h2 : S8x10x1.Broadcasts S8x10x10)
    (r : Fin 8) (i j : Fin 10) :
    broadcastTo S8x10x10 (shapeCast S8x10x1 v h1) h2 (ix3 r i j) = v (ix2 r i) := by
  refine (broadcastTo_apply _ h2 (ix3 r i j) (ix3 r i (0 : Fin 1)) fun ax => ?_).trans ?_
  · match ax with
    | ⟨0, _⟩ => rfl
    | ⟨1, _⟩ => rfl
    | ⟨2, _⟩ => rfl
  · exact shapeCast_apply v h1 _ _ (by
      rw [Shape.rowMajor_val_three, Shape.rowMajor_val_two]
      show r.val * 10 + i.val = (r.val * 10 + i.val) * 1 + 0
      omega)

/-- A per-sample value as a one-column block. -/
theorem as_column (v : S8.Idx → α) (h1 : S8.ShapeCasts S8x1) (r : Fin 8) :
    shapeCast S8x1 v h1 (ix2 r (0 : Fin 1)) = v (ix1 r) :=
  shapeCast_apply v h1 _ _ (by
    rw [Shape.rowMajor_val_one, Shape.rowMajor_val_two]
    show r.val = r.val * 1 + 0
    omega)

/-- Two one-column blocks joined side by side: column 0 is the first. -/
theorem joined_col0 (a b : S8x1.Idx → α) (hc : Shape.Concatenates [S8x1, S8x1] S8x2 1) (r : Fin 8) :
    concatenate S8x2 1 [⟨S8x1, a⟩, ⟨S8x1, b⟩] hc (ix2 r (0 : Fin 2)) = a (ix2 r (0 : Fin 1)) :=
  concatenate_apply_piece (t := S8x2) 1 [⟨S8x1, a⟩, ⟨S8x1, b⟩] hc (ix2 r (0 : Fin 2)) 0 (Nat.succ_pos _) S8x1 a rfl rfl 0 rfl
    (ix2 r (0 : Fin 1)) (fun b hb => by
      match b with
      | ⟨0, _⟩ => rfl
      | ⟨1, _⟩ => exact absurd rfl hb) rfl

/-- Two one-column blocks joined side by side: column 1 is the second. -/
theorem joined_col1 (a b : S8x1.Idx → α) (hc : Shape.Concatenates [S8x1, S8x1] S8x2 1) (r : Fin 8) :
    concatenate S8x2 1 [⟨S8x1, a⟩, ⟨S8x1, b⟩] hc (ix2 r (1 : Fin 2)) = b (ix2 r (0 : Fin 1)) :=
  concatenate_apply_piece (t := S8x2) 1 [⟨S8x1, a⟩, ⟨S8x1, b⟩] hc (ix2 r (1 : Fin 2)) 1 (Nat.succ_lt_succ (Nat.succ_pos _)) S8x1 b rfl rfl 1 rfl
    (ix2 r (0 : Fin 1)) (fun c hc => by
      match c with
      | ⟨0, _⟩ => rfl
      | ⟨1, _⟩ => exact absurd rfl hc) rfl

end Cert.GroupLoss.Ker

end
-- ==== Proof.KRed.lean ====
/-
  Sums along one axis of the kernel's block-shaped vectors, read at an index: at the ideal values a lane or sublane
  sum is the plain finite sum of the entries along that axis.
-/
import proofs.«164034_j30863634989288_2_alg».proof.KernelIdeal
import Idealize.ShloMosaic.PureOps.Ideal.Laws
import Idealize.ShloMosaic.Lib.ValueIdx

noncomputable section

namespace Cert.GroupLoss.Ker

open Idealize.ShloMosaic Idealize.ShloMosaic.ValueIdx Cert.KernelIdeal

/-- A sum over the key-point axis of an [8,17,10] vector, at (r, p). -/
theorem red_k (src : FVec Ideal S8x17x10 .f32) (h : S8x17x10.Reduces [1] S8x10) (hφ : FKind.Formats .f32)
    (hacc : (0x00000000#32 : BitVec 32) = FKind.add.neutral .f32 hφ) (r : Fin 8) (p : Fin 10) :
    multiReduction .add [1] S8x10 src 0x00000000#32 h hφ hacc (ix2 r p) = ∑ k : Fin 17, src (ix3 r k p) := by
  refine (Ideal.multiReduction_add_single src 0x00000000#32 h hφ hacc (ix2 r p)).trans ?_
  refine Finset.sum_congr rfl fun k _ => congrArg src ?_
  funext a
  apply Fin.ext
  match a with
  | ⟨0, _⟩ => rfl
  | ⟨1, _⟩ => rfl
  | ⟨2, _⟩ => rfl

/-- A sum over the second person axis of an [8,10,10] vector, at (r, i). -/
theorem red_j (src : FVec Ideal S8x10x10 .f32) (h : S8x10x10.Reduces [2] S8x10) (hφ : FKind.Formats .f32)
    (hacc : (0x00000000#32 : BitVec 32) = FKind.add.neutral .f32 hφ) (r : Fin 8) (i : Fin 10) :
    multiReduction .add [2] S8x10 src 0x00000000#32 h hφ hacc (ix2 r i) = ∑ j : Fin 10, src (ix3 r i j) := by
  refine (Ideal.multiReduction_add_single src 0x00000000#32 h hφ hacc (ix2 r i)).trans ?_
  refine Finset.sum_congr rfl fun j _ => congrArg src ?_
  funext a
  apply Fin.ext
  match a with
  | ⟨0, _⟩ => rfl
  | ⟨1, _⟩ => rfl
  | ⟨2, _⟩ => rfl

/-- A sum over the person axis of an [8,10] vector, at r. -/
theorem red_p (src : FVec Ideal S8x10 .f32) (h : S8x10.Reduces [1] S8) (hφ : FKind.Formats .f32)
    (hacc : (0x00000000#32 : BitVec 32) = FKind.add.neutral .f32 hφ) (r : Fin 8) :
    multiReduction .add [1] S8 src 0x00000000#32 h hφ hacc (ix1 r) = ∑ p : Fin 10, src (ix2 r p) := by
  refine (Ideal.multiReduction_add_single src 0x00000000#32 h hφ hacc (ix1 r)).trans ?_
  refine Finset.sum_congr rfl fun p _ => congrArg src ?_
  funext a
  apply Fin.ext
  match a with
  | ⟨0, _⟩ => rfl
  | ⟨1, _⟩ => rfl

/-- A sum over the 128 lanes of a [136,10,128] vector, at (b, p). -/
theorem red_w (src : FVec Ideal S136x10x128 .f32) (h : S136x10x128.Reduces [2] S136x10) (hφ : FKind.Formats .f32)
    (hacc : (0x00000000#32 : BitVec 32) = FKind.add.neutral .f32 hφ) (b : Fin 136) (p : Fin 10) :
    multiReduction .add [2] S136x10 src 0x00000000#32 h hφ hacc (ix2 b p) = ∑ w : Fin 128, src (ix3 b p w) := by
  refine (Ideal.multiReduction_add_single src 0x00000000#32 h hφ hacc (ix2 b p)).trans ?_
  refine Finset.sum_congr rfl fun w _ => congrArg src ?_
  funext a
  apply Fin.ext
  match a with
  | ⟨0, _⟩ => rfl
  | ⟨1, _⟩ => rfl
  | ⟨2, _⟩ => rfl

end Cert.GroupLoss.Ker

end
-- ==== Proof.KLoss.lean ====
/-
  The kernel body's arithmetic on one block of 8 samples is the specification's, sample by sample.

  With `vl r p k` the gathered embedding of sample `r`, person `p`, key point `k` and `wt r p k` its weight (the
  body holds both with the key-point axis in the middle, [8,17,10]), each intermediate vector of the body, read at an
  index, is the specification's quantity of that name: the weight sums, their floor at one, the persons' embeddings,
  the weighted squared deviations, the within loss; the 0/1 pair matrix, its sum, the hinge sum over it, the across
  loss. Sums along an axis are plain finite sums here, and the two-step sum over a pair matrix is the double sum.
-/
import proofs.«164034_j30863634989288_2_alg».proof.Proof.Gen.KernelIdeal.Skeleton
import proofs.«164034_j30863634989288_2_alg».proof.Proof.Spec
import proofs.«164034_j30863634989288_2_alg».proof.Proof.KLayout
import proofs.«164034_j30863634989288_2_alg».proof.Proof.KRed

noncomputable section

namespace Cert.GroupLoss.Ker

open Idealize.ShloMosaic Idealize.ShloMosaic.ValueIdx Cert.KernelIdeal Cert.KernelIdeal.Gen Cert.GroupLoss

variable (x0 : Vec Ideal S8x17x128x128 .f32) (x1 x2 : Vec Ideal S8x17x10 .i32) (x3 : Vec Ideal S8x17x10 .f32)

/-- Sample `r`'s weights, person first. -/
def wt (r : Fin 8) : Fin 10 → Fin 17 → EReal := fun p k => x3 (ix3 r k p)
/-- Sample `r`'s gathered embeddings, person first. -/
def vl (r : Fin 8) : Fin 10 → Fin 17 → EReal := fun p k => k0_pay2 x0 x1 x2 (ix3 r k p)

/-- The weights block as loaded. -/
theorem weights_eq : k0_pay3 x3 = x3 := by
  unfold k0_pay3
  exact shapeCast_self _ _

theorem cnt_at (r : Fin 8) (p : Fin 10) : k0_pay4 x3 (ix2 r p) = cnt (wt x3 r) p := by
  unfold k0_pay4
  refine (red_k _ _ _ _ r p).trans ?_
  exact Finset.sum_congr rfl fun k _ => congrFun (weights_eq x3) (ix3 r k p)

theorem safe_at (r : Fin 8) (p : Fin 10) : k0_pay5 x3 (ix2 r p) = safe (wt x3 r) p := by
  unfold k0_pay5
  exact congrArg (fun a => max a w1) (cnt_at x3 r p)

theorem emb_at (r : Fin 8) (p : Fin 10) :
    k0_pay6 x0 x1 x2 x3 (ix2 r p) = emb (vl x0 x1 x2 r) (wt x3 r) p := by
  unfold k0_pay6
  refine congrArg₂ Ideal.div ?_ (safe_at x3 r p)
  refine (red_k _ _ _ _ r p).trans ?_
  exact Finset.sum_congr rfl fun k _ =>
    congrArg (fun a => k0_pay2 x0 x1 x2 (ix3 r k p) * a) (congrFun (weights_eq x3) (ix3 r k p))

theorem dev_at (r : Fin 8) (k : Fin 17) (p : Fin 10) :
    k0_pay7 x0 x1 x2 x3 (ix3 r k p)
      = (vl x0 x1 x2 r p k - emb (vl x0 x1 x2 r) (wt x3 r) p) * (vl x0 x1 x2 r p k - emb (vl x0 x1 x2 r) (wt x3 r) p)
          * wt x3 r p k := by
  unfold k0_pay7
  have he := fun h1 h2 => (along_keypoints (k0_pay6 x0 x1 x2 x3) h1 h2 r k p).trans (emb_at x0 x1 x2 x3 r p)
  refine congrArg₂ (· * ·) (congrArg₂ (· * ·) ?_ ?_) (congrFun (weights_eq x3) (ix3 r k p))
  · exact congrArg (fun a => k0_pay2 x0 x1 x2 (ix3 r k p) - a) (he _ _)
  · exact congrArg (fun a => k0_pay2 x0 x1 x2 (ix3 r k p) - a) (he _ _)

/-- THE WITHIN LOSS of sample `r` of the block. -/
theorem within_at (r : Fin 8) :
    k0_pay8 (k0_pay4 x3) (k0_pay5 x3) (k0_pay7 x0 x1 x2 x3) (ix1 r) = within1 (vl x0 x1 x2 r) (wt x3 r) := by
  unfold k0_pay8
  refine congrArg (fun a => Ideal.div a w10) ?_
  refine (red_p _ _ _ _ r).trans ?_
  refine Finset.sum_congr rfl fun p _ => ?_
  refine congrArg₂ (fun c a => Scalar.select c a w0) ?_ ?_
  · exact congrArg (fun a => Ideal.cmp .ogt a w0) (cnt_at x3 r p)
  · refine congrArg₂ Ideal.div ?_ (safe_at x3 r p)
    refine (red_k _ _ _ _ r p).trans ?_
    exact Finset.sum_congr rfl fun k _ => dev_at x0 x1 x2 x3 r k p

theorem present_at (r : Fin 8) (p : Fin 10) (c : IVec S8x10 1) (hc : c (ix2 r p) = Ideal.cmp .ogt (k0_pay4 x3 (ix2 r p)) w0) :
    FloatOps.sitofp (F := Ideal) .f32 ((c (ix2 r p)).setWidth 32) = bit (present (wt x3 r) p) := by
  rw [hc]
  exact (sitofp_extui_bit _).trans (congrArg bit (congrArg (fun a => Ideal.cmp .ogt a w0) (cnt_at x3 r p)))

theorem pair_at (r : Fin 8) (i j : Fin 10) : k0_pay9 (k0_pay4 x3) (ix3 r i j) = pair (wt x3 r) i j := by
  unfold k0_pay9
  refine congrArg₂ (· * ·) (congrArg₂ (· * ·) ?_ ?_) ?_
  · refine (at_first _ _ _ r i j).trans ?_
    exact present_at x3 r i _ rfl
  · refine (at_second _ _ _ r i j).trans ?_
    exact present_at x3 r j _ rfl
  · refine congrArg (fun a => w1 - a) ?_
    refine (sitofp_extui_bit _).trans (congrArg bit ?_)
    exact congrArg₂ (IntOp.cmpi .eq) (iota_single_apply .tc S8x10x10 32 1 _ (ix3 r i j))
      (iota_single_apply .tc S8x10x10 32 2 _ (ix3 r i j))

theorem pairs_at (r : Fin 8) : k0_pay10 (k0_pay4 x3) (ix1 r) = pairs (wt x3 r) := by
  unfold k0_pay10
  refine (red_p _ _ _ _ r).trans (Finset.sum_congr rfl fun i _ => ?_)
  refine (red_j _ _ _ _ r i).trans (Finset.sum_congr rfl fun j _ => ?_)
  exact pair_at x3 r i j

theorem anypair_at (r : Fin 8) : k0_pay11 (k0_pay4 x3) (ix1 r) = Ideal.cmp .ogt (pairs (wt x3 r)) w0 := by
  unfold k0_pay11
  exact congrArg (fun a => Ideal.cmp .ogt a w0) (pairs_at x3 r)

theorem ratio_at (r : Fin 8) :
    k0_pay12 (k0_pay4 x3) (k0_pay6 x0 x1 x2 x3) (ix1 r)
      = Ideal.div (∑ i : Fin 10, ∑ j : Fin 10, hinge (vl x0 x1 x2 r) (wt x3 r) i j) (max (pairs (wt x3 r)) w1) := by
  unfold k0_pay12
  refine congrArg₂ Ideal.div ?_ (congrArg (fun a => max a w1) (pairs_at x3 r))
  refine (red_p _ _ _ _ r).trans (Finset.sum_congr rfl fun i _ => ?_)
  refine (red_j _ _ _ _ r i).trans (Finset.sum_congr rfl fun j _ => ?_)
  refine congrArg₂ (· * ·) ?_ (pair_at x3 r i j)
  have hd := fun h1 h2 h3 h4 => congrArg₂ (fun a b : EReal => a - b)
    ((at_second (k0_pay6 x0 x1 x2 x3) h1 h2 r i j).trans (emb_at x0 x1 x2 x3 r j))
    ((at_first (k0_pay6 x0 x1 x2 x3) h3 h4 r i j).trans (emb_at x0 x1 x2 x3 r i))
  exact congrArg (fun d : EReal => max (w1 - max d (-d)) w0) (hd _ _ _ _)

/-- The block the body stores, as one term of the four input blocks. -/
def blockOut : FVec Ideal S8x2 .f32 :=
  k0_pay1 (k0_pay8 (k0_pay4 x3) (k0_pay5 x3) (k0_pay7 x0 x1 x2 x3)) (k0_pay11 (k0_pay4 x3))
    (k0_pay12 (k0_pay4 x3) (k0_pay6 x0 x1 x2 x3))

/-- Column 0 of the stored block is the within loss of each sample. -/
theorem block_within (r : Fin 8) : blockOut x0 x1 x2 x3 (ix2 r (0 : Fin 2)) = within1 (vl x0 x1 x2 r) (wt x3 r) := by
  unfold blockOut k0_pay1
  exact ((joined_col0 _ _ _ r).trans (as_column _ _ r)).trans (within_at x0 x1 x2 x3 r)

/-- Column 1 of the stored block is the across loss of each sample. -/
theorem block_across (r : Fin 8) : blockOut x0 x1 x2 x3 (ix2 r (1 : Fin 2)) = across1 (vl x0 x1 x2 r) (wt x3 r) := by
  unfold blockOut k0_pay1
  refine ((joined_col1 _ _ _ r).trans (as_column _ _ r)).trans ?_
  exact congrArg₂ (fun c a => Scalar.select c a w0) (anypair_at x3 r) (ratio_at x0 x1 x2 x3 r)

end Cert.GroupLoss.Ker

end
-- ==== Proof.KGather.lean ====
/-
  The kernel's gather. For each (sample r, key point k, person p) of a block the body selects ONE entry of the
  128 x 128 heat map (r, k): it multiplies the map by the 0/1 row that marks the row coordinate y (a matrix product
  over the 128 rows), keeps of the resulting 128 lanes the one at the column coordinate x, and sums the lanes. On the
  extended reals `0 * a = 0` and `0 + a = a` for every a, so both sums keep exactly one term: the entry at (y, x).
-/
import proofs.«164034_j30863634989288_2_alg».proof.Proof.Gen.KernelIdeal.Skeleton
import proofs.«164034_j30863634989288_2_alg».proof.Proof.Spec
import proofs.«164034_j30863634989288_2_alg».proof.Proof.KLayout
import proofs.«164034_j30863634989288_2_alg».proof.Proof.KRed

noncomputable section

namespace Cert.GroupLoss.Ker

open Idealize.ShloMosaic Idealize.ShloMosaic.ValueIdx Cert.KernelIdeal Cert.KernelIdeal.Gen Cert.GroupLoss

/-- The batched product of the 0/1 rows with the heat maps, at (row b, person p, lane w): the sum over the map's 128
    rows h of the mark at (b, p, h) times the map's entry (b, h, w). -/
theorem rows_times_maps (lhs : FVec Ideal S136x10x128 .bf16) (rhs : FVec Ideal S136x128x128 .bf16)
    (b : Fin 136) (p : Fin 10) (w : Fin 128) :
    matmul dot_S136x10x128_S136x128x128_S136x10x128_2_1_1_2_0_0 none lhs rhs (constant S136x10x128 .f32 0x00000000#32) (ix3 b p w)
      = ∑ h : Fin 128, lhs (ix3 b p h) * rhs (ix3 b h w) := by
  refine (Ideal.matmul_constant_zero_apply dot_S136x10x128_S136x128x128_S136x10x128_2_1_1_2_0_0 none lhs rhs (ix3 b p w)).trans ?_
  refine ((contrEquiv1 dot_S136x10x128_S136x128x128_S136x10x128_2_1_1_2_0_0 128 rfl rfl).symm.sum_comp _).symm.trans ?_
  refine Finset.sum_congr rfl fun h _ => ?_
  have hk := contrEquiv1_symm_val dot_S136x10x128_S136x128x128_S136x10x128_2_1_1_2_0_0 128 rfl rfl h
  have e1 : dot_S136x10x128_S136x128x128_S136x10x128_2_1_1_2_0_0.lhsIdx (ix3 b p w)
      ((contrEquiv1 dot_S136x10x128_S136x128x128_S136x10x128_2_1_1_2_0_0 128 rfl rfl).symm h) = ix3 b p h := by
    funext a
    apply Fin.ext
    match a with
    | ⟨0, _⟩ => rfl
    | ⟨1, _⟩ => rfl
    | ⟨2, _⟩ => exact (DotDims.lhsIdx_val_of_single dot_S136x10x128_S136x128x128_S136x10x128_2_1_1_2_0_0 rfl (ix3 b p w) _).trans hk
  have e2 : dot_S136x10x128_S136x128x128_S136x10x128_2_1_1_2_0_0.rhsIdx (ix3 b p w)
      ((contrEquiv1 dot_S136x10x128_S136x128x128_S136x10x128_2_1_1_2_0_0 128 rfl rfl).symm h) = ix3 b h w := by
    funext a
    apply Fin.ext
    match a with
    | ⟨0, _⟩ => rfl
    | ⟨1, _⟩ => exact (DotDims.rhsIdx_val_of_single dot_S136x10x128_S136x128x128_S136x10x128_2_1_1_2_0_0 rfl (ix3 b p w) _).trans hk
    | ⟨2, _⟩ => rfl
  rw [e1, e2]

/-- The lane numbers of a [136,10,128] vector. -/
theorem lane_number (hI : S136x10x128.Iotas .tc 32 [2]) (b : Fin 136) (p : Fin 10) (w : Fin 128) :
    iota .tc S136x10x128 32 [2] hI (ix3 b p w) = BitVec.ofNat 32 w.val :=
  iota_single_apply .tc S136x10x128 32 2 hI (ix3 b p w)

/-- THE GATHER: the body's gathered value at (r, k, p) is the heat map (r, k) at the row the first coordinate block
    names and the column the second names, when both are below 128. -/
theorem gathered (x0 : Vec Ideal S8x17x128x128 .f32) (x1 x2 : Vec Ideal S8x17x10 .i32) (r : Fin 8) (k : Fin 17) (p : Fin 10)
    (hy : (x1 (ix3 r k p)).toNat < 128) (hx : (x2 (ix3 r k p)).toNat < 128) :
    k0_pay2 x0 x1 x2 (ix3 r k p) = x0 (ix4 r k ⟨(x1 (ix3 r k p)).toNat, hy⟩ ⟨(x2 (ix3 r k p)).toNat, hx⟩) := by
  unfold k0_pay2
  refine (split_rows _ _ r k p).trans ?_
  refine (red_w _ _ _ _ (row r k) p).trans ?_
  refine Eq.trans (Finset.sum_congr rfl fun w _ => ?_) (sum_onehot_select hx fun w => x0 (ix4 r k ⟨(x1 (ix3 r k p)).toNat, hy⟩ w))
  refine Eq.trans (select_apply _ _ _ _) ?_
  refine congrArg₂ (fun c a => Scalar.select c a w0) ?_ ?_
  · refine Eq.trans (congrArg₂ (IntOp.cmpi .eq) (lane_number _ (row r k) p w) ?_) rfl
    exact (along_lanes _ _ _ (row r k) p w).trans (merge_rows x2 _ _ r k p)
  · refine (rows_times_maps _ _ (row r k) p w).trans ?_
    refine Eq.trans (Finset.sum_congr rfl fun h _ => ?_) (sum_onehot_mul hy fun h => x0 (ix4 r k h w))
    refine congrArg₂ (· * ·) ?_ ?_
    · refine Eq.trans (sitofp_extui_bit _) (congrArg bit ?_)
      refine Eq.trans (congrArg₂ (IntOp.cmpi .eq) (lane_number _ (row r k) p h) ?_) rfl
      exact (along_lanes _ _ _ (row r k) p h).trans (merge_rows x1 _ _ r k p)
    · exact merge_maps x0 _ _ r k h w

end Cert.GroupLoss.Ker

end
-- ==== Proof.KArray.lean ====
/-
  From blocks to the whole array. Grid point `t` (of 16) handles samples `8 t .. 8 t + 7`: each input window's block at
  `t` is rows `8 t + r` of its array, and the [8, 2] block written back is rows `8 t + r` of the [128, 2] result. So the
  result array after the region is one function of the arrays the region finds: row `n` holds the within and the
  across loss of sample `n`, computed from the heat maps, the two coordinate arrays and the weights at sample `n`.
  The 16 blocks tile the 128 rows, so every entry is written.
-/
import proofs.«164034_j30863634989288_2_alg».proof.Proof.Gen.KernelIdeal.Frame
import proofs.«164034_j30863634989288_2_alg».proof.Proof.KLoss
import proofs.«164034_j30863634989288_2_alg».proof.Proof.KGather
import Idealize.ShloMosaic.Lib.Pipeline.Value

set_option maxRecDepth 16384

noncomputable section

namespace Cert.GroupLoss.Ker

open Idealize.ShloMosaic Idealize.ShloMosaic.ValueIdx Idealize.ShloMosaic.TcCoe Idealize.SL.Sem
open Cert.KernelIdeal Cert.KernelIdeal.Gen Cert.GroupLoss
open Idealize.ShloMosaic.Pipeline (Dat)

variable (m : (ℓ : Loc nD τ sig) → Buf (Elt Ideal) ℓ)

/-- The four arrays the region finds: the heat maps, the row and the column coordinates, the weights. -/
abbrev maps (c : Dev nD) : S128x17x128x128.Idx → EReal := V m c main_v0
abbrev rowsA (c : Dev nD) : S128x17x10.Idx → BitVec 32 := V m c main_v24
abbrev colsA (c : Dev nD) : S128x17x10.Idx → BitVec 32 := V m c main_v23
abbrev wtsA (c : Dev nD) : S128x17x10.Idx → EReal := V m c main_v26

/-- Both coordinate arrays hold numbers below 128. -/
def InRange (c : Dev nD) : Prop :=
  (∀ i, (rowsA m c i).toNat < 128) ∧ (∀ i, (colsA m c i).toNat < 128)

/-- Sample `n`'s embeddings read off the arrays: the map (n, k) at the coordinates named for (n, k, p). -/
def smpV (c : Dev nD) (hR : InRange m c) (n : Fin 128) : Fin 10 → Fin 17 → EReal := fun p k =>
  maps m c (ix4 n k ⟨(rowsA m c (ix3 n k p)).toNat, hR.1 _⟩ ⟨(colsA m c (ix3 n k p)).toNat, hR.2 _⟩)
/-- Sample `n`'s weights read off the array. -/
def smpW (c : Dev nD) (n : Fin 128) : Fin 10 → Fin 17 → EReal := fun p k => wtsA m c (ix3 n k p)

/-- THE RESULT ARRAY as one function of the arrays the region finds. -/
def lossArr (c : Dev nD) (hR : InRange m c) : S128x2.Idx → EReal := fun i =>
  if (i 1).val = 0 then within1 (smpV m c hR (i 0)) (smpW m c (i 0)) else across1 (smpV m c hR (i 0)) (smpW m c (i 0))

theorem t_lt (t : Fin cfg0.N) : t.val < 16 := lt_of_lt_of_eq t.isLt N_0

/-- Grid point `t`'s sample `r`. -/
def smp (t : Fin cfg0.N) (r : Fin 8) : Fin 128 := ⟨t.val * 8 + r.val, by have := t_lt t; have := r.isLt; omega⟩

/-- The printed index maps: every window moves along the sample axis with the grid point and nowhere else. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- The heat-map block at point `t` is rows `8 t + r` of the heat maps. -/
theorem maps_blk (c : Dev nD) (t : Fin cfg0.N) (r : Fin 8) (k : Fin 17) (h w : Fin 128) :
    iblk m c 0 t (ix4 r k h w) = maps m c (ix4 (smp t r) k h w) := by
  obtain ⟨e0, e1, e2, e3, -⟩ := idx_facts t
  show V m c main_v0 (((cfg0.win 0).blk t).view.emb (ix4 r k h w)) = V m c main_v0 (ix4 (smp t r) k h w)
  refine congrArg (V m c main_v0) (funext fun a => Fin.ext ?_)
  match a with
  | ⟨0, _⟩ => show win0_0.index t (0 : Fin 4) * 8 + 1 * r.val = t.val * 8 + r.val; rw [e0]; omega
  | ⟨1, _⟩ => show win0_0.index t (1 : Fin 4) * 17 + 1 * k.val = k.val; rw [e1]; omega
  | ⟨2, _⟩ => show win0_0.index t (2 : Fin 4) * 128 + 1 * h.val = h.val; rw [e2]; omega
  | ⟨3, _⟩ => show win0_0.index t (3 : Fin 4) * 128 + 1 * w.val = w.val; rw [e3]; omega

theorem rows_blk (c : Dev nD) (t : Fin cfg0.N) (r : Fin 8) (k : Fin 17) (p : Fin 10) :
    iblk m c 1 t (ix3 r k p) = rowsA m c (ix3 (smp t r) k p) := by
  obtain ⟨-, -, -, -, e0, e1, e2, -⟩ := idx_facts t
  show V m c main_v24 (((cfg0.win 1).blk t).view.emb (ix3 r k p)) = V m c main_v24 (ix3 (smp t r) k p)
  refine congrArg (V m c main_v24) (funext fun a => Fin.ext ?_)
  match a with
  | ⟨0, _⟩ => show win0_1.index t (0 : Fin 3) * 8 + 1 * r.val = t.val * 8 + r.val; rw [e0]; omega
  | ⟨1, _⟩ => show win0_1.index t (1 : Fin 3) * 17 + 1 * k.val = k.val; rw [e1]; omega
  | ⟨2, _⟩ => show win0_1.index t (2 : Fin 3) * 10 + 1 * p.val = p.val; rw [e2]; omega

theorem cols_blk (c : Dev nD) (t : Fin cfg0.N) (r : Fin 8) (k : Fin 17) (p : Fin 10) :
    iblk m c 2 t (ix3 r k p) = colsA m c (ix3 (smp t r) k p) := by
  obtain ⟨-, -, -, -, -, -, -, e0, e1, e2, -⟩ := idx_facts t
  show V m c main_v23 (((cfg0.win 2).blk t).view.emb (ix3 r k p)) = V m c main_v23 (ix3 (smp t r) k p)
  refine congrArg (V m c main_v23) (funext fun a => Fin.ext ?_)
  match a with
  | ⟨0, _⟩ => show win0_2.index t (0 : Fin 3) * 8 + 1 * r.val = t.val * 8 + r.val; rw [e0]; omega
  | ⟨1, _⟩ => show win0_2.index t (1 : Fin 3) * 17 + 1 * k.val = k.val; rw [e1]; omega
  | ⟨2, _⟩ => show win0_2.index t (2 : Fin 3) * 10 + 1 * p.val = p.val; rw [e2]; omega

theorem wts_blk (c : Dev nD) (t : Fin cfg0.N) (r : Fin 8) (k : Fin 17) (p : Fin 10) :
    iblk m c 3 t (ix3 r k p) = wtsA m c (ix3 (smp t r) k p) := by
  obtain ⟨-, -, -, -, -, -, -, -, -, -, e0, e1, e2, -⟩ := idx_facts t
  show V m c main_v26 (((cfg0.win 3).blk t).view.emb (ix3 r k p)) = V m c main_v26 (ix3 (smp t r) k p)
  refine congrArg (V m c main_v26) (funext fun a => Fin.ext ?_)
  match a with
  | ⟨0, _⟩ => show win0_3.index t (0 : Fin 3) * 8 + 1 * r.val = t.val * 8 + r.val; rw [e0]; omega
  | ⟨1, _⟩ => show win0_3.index t (1 : Fin 3) * 17 + 1 * k.val = k.val; rw [e1]; omega
  | ⟨2, _⟩ => show win0_3.index t (2 : Fin 3) * 10 + 1 * p.val = p.val; rw [e2]; omega

/-- The block's samples carry the arrays' embeddings and weights of samples `8 t + r`. -/
theorem vl_blk (c : Dev nD) (hR : InRange m c) (t : Fin cfg0.N) (r : Fin 8) :
    vl (iblk m c 0 t) (iblk m c 1 t) (iblk m c 2 t) r = smpV m c hR (smp t r) := by
  funext p k
  have hy : (iblk m c 1 t (ix3 r k p)).toNat < 128 := by rw [rows_blk]; exact hR.1 _
  have hx : (iblk m c 2 t (ix3 r k p)).toNat < 128 := by rw [cols_blk]; exact hR.2 _
  refine (gathered (iblk m c 0 t) (iblk m c 1 t) (iblk m c 2 t) r k p hy hx).trans ?_
  refine (maps_blk m c t r k _ _).trans ?_
  exact congrArg₂ (fun a b => maps m c (ix4 (smp t r) k a b))
    (Fin.ext (congrArg BitVec.toNat (rows_blk m c t r k p))) (Fin.ext (congrArg BitVec.toNat (cols_blk m c t r k p)))

theorem wt_blk (c : Dev nD) (t : Fin cfg0.N) (r : Fin 8) : wt (iblk m c 3 t) r = smpW m c (smp t r) := by
  funext p k
  exact wts_blk m c t r k p

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the body leaves in the output buffer is the stored block of the four input blocks. -/
theorem out_eq (x0 : Vec Ideal S8x17x128x128 .f32) (x1 x2 : Vec Ideal S8x17x10 .i32) (x3 : Vec Ideal S8x17x10 .f32) :
    out0_4 x0 x1 x2 x3 = blockOut x0 x1 x2 x3 := by
  unfold out0_4
  rw [View.canon_unit_zero hz2]
  simp only [View.ld_unit_zero (S := S8x17x128x128) hz4, View.ld_unit_zero (S := S8x17x10) hz3]
  rfl

/-- WHAT POINT `t` WRITES BACK is block `t` of the result array. -/
theorem flushed_eq (c : Dev nD) (hR : InRange m c) (t : Fin cfg0.N) :
    (dats m 0 c).flushed 4 t = ((cfg0.win 4).blk t).view.read (Elt Ideal) (lossArr m c hR) := by
  show (cfg0.win 4).cut (grid0.coords t) ((dats m 0 c).after 4 t) = _
  rw [after0_4, out_eq]
  obtain ⟨-, -, -, -, -, -, -, -, -, -, -, -, -, e0, e1⟩ := idx_facts t
  refine funext fun (j : S8x2.Idx) => ?_
  obtain ⟨r, q, rfl⟩ : ∃ (r : Fin 8) (q : Fin 2), j = ix2 r q := ⟨j 0, j 1, eq_ix2 j⟩
  have hemb : ((cfg0.win 4).blk t).view.emb (ix2 r q) = ix2 (smp t r) q := by
    funext a
    apply Fin.ext
    match a with
    | ⟨0, _⟩ => show win0_4.index t (0 : Fin 2) * 8 + 1 * r.val = t.val * 8 + r.val; rw [e0]; omega
    | ⟨1, _⟩ => show win0_4.index t (1 : Fin 2) * 2 + 1 * q.val = q.val; rw [e1]; omega
  show blockOut (iblk m c 0 t) (iblk m c 1 t) (iblk m c 2 t) (iblk m c 3 t) (ix2 r q)
    = lossArr m c hR (((cfg0.win 4).blk t).view.emb (ix2 r q))
  rw [hemb]
  match q with
  | ⟨0, _⟩ =>
    refine (block_within (iblk m c 0 t) (iblk m c 1 t) (iblk m c 2 t) (iblk m c 3 t) r).trans ?_
    rw [vl_blk m c hR t r, wt_blk m c t r]
    exact (if_pos rfl).symm
  | ⟨1, _⟩ =>
    refine (block_across (iblk m c 0 t) (iblk m c 1 t) (iblk m c 2 t) (iblk m c 3 t) r).trans ?_
    rw [vl_blk m c hR t r, wt_blk m c t r]
    exact (if_neg Nat.one_ne_zero).symm

/-- An index of the result array is in point `t`'s block iff each coordinate is in the block's range. -/
theorem mem_blk (t : Fin cfg0.N) (i : S128x2.Idx) :
    i ∈ ((cfg0.win 4).blk t).view.set ↔ ∀ a : Fin 2, win0_4.index t a * S8x2.size a ≤ (i a).val ∧ (i a).val < win0_4.index t a * S8x2.size a + S8x2.size a := by
  show i ∈ ((View.whole main_v27).slice (win0_4.rect t)).set ↔ _
  rw [View.set_slice_whole, Rect.mem_set_unit]
  exact Iff.rfl

/-- THE RESULT ARRAY after the region. -/
theorem final (c : Dev nD) (hR : InRange m c) : (dats m 0 c).arrAt 4 cfg0.N = lossArr m c hR :=
  (dats m 0 c).arrAt_eq_of_cover 4 (lossArr m c hR) (fun t _ => flushed_eq m c hR t) fun (i : S128x2.Idx) => by
    have hi0 : (i 0).val < 128 := (i 0).isLt
    have hi1 : (i 1).val < 2 := (i 1).isLt
    have hN : (i 0).val / 8 < cfg0.N := by rw [show cfg0.N = 16 from N_0]; omega
    refine ⟨⟨(i 0).val / 8, hN⟩, flush0_4 _, ?_⟩
    obtain ⟨-, -, -, -, -, -, -, -, -, -, -, -, -, e0, e1⟩ := idx_facts ⟨(i 0).val / 8, hN⟩
    refine (mem_blk ⟨(i 0).val / 8, hN⟩ i).mpr fun a => ?_
    match a with
    | ⟨0, _⟩ =>
      show win0_4.index ⟨(i 0).val / 8, hN⟩ (0 : Fin 2) * 8 ≤ (i 0).val ∧ (i 0).val < win0_4.index ⟨(i 0).val / 8, hN⟩ (0 : Fin 2) * 8 + 8
      rw [e0]; show (i 0).val / 8 * 8 ≤ (i 0).val ∧ (i 0).val < (i 0).val / 8 * 8 + 8; omega
    | ⟨1, _⟩ =>
      show win0_4.index ⟨(i 0).val / 8, hN⟩ (1 : Fin 2) * 2 ≤ (i 1).val ∧ (i 1).val < win0_4.index ⟨(i 0).val / 8, hN⟩ (1 : Fin 2) * 2 + 2
      rw [e1]; omega

end Cert.GroupLoss.Ker

end
-- ==== Proof.RefLoss.lean ====
/-
  The reference's per-sample losses are the specification's.

  For one sample n, write v p k for the embedding the reference gathers for person p's keypoint k and m p k for that
  keypoint's validity weight (the reference's arrays of gathered values and of the mask read as numbers, at (n, p, k)).
  Every later array of the reference, read at sample n, is one of the specification's formulas in v and m: the weight
  sum, its floor at one, the weighted mean, the weighted mean squared deviation, the presence bit, the within loss;
  then the presence bit as a number, the two broadcasts of the means and of the presence numbers to person pairs, the
  off-diagonal mask, the pair weight, the hinge, their sums over all pairs and the across loss.

  A sum over the last two axes of a [128, 10, 10] array at n is the double sum over the two person coordinates: the
  indices that keep n on the first axis are exactly the triples (n, i, j).
-/
import proofs.«164034_j30863634989288_2_alg».proof.Proof.RefRead
import proofs.«164034_j30863634989288_2_alg».proof.Proof.Spec
noncomputable section
namespace Cert.GroupLoss.Ref
open Idealize.ShloMosaic Idealize.ShloMosaic.ValueIdx Cert.ReferenceIdeal Cert.ReferenceIdeal.Gen Cert.ReferenceIdeal.Read Cert.GroupLoss

/-- sample n's gathered embeddings and weights in the reference: its arrays %54 and %55 at (n, p, k) -/
def vals (x0 : (⟨S16x8x17x128x128, .f32⟩ : BufTy).Contents (Elt Ideal)) (x1 : (⟨S16x8x10x17x2, .f32⟩ : BufTy).Contents (Elt Ideal)) (n : Fin 128) : Fin 10 → Fin 17 → EReal :=
  fun p k => val_main_v54 (F := Ideal) x0 x1 (ix3 n p k)
def wts (x1 : (⟨S16x8x10x17x2, .f32⟩ : BufTy).Contents (Elt Ideal)) (n : Fin 128) : Fin 10 → Fin 17 → EReal :=
  fun p k => val_main_v55 (F := Ideal) x1 (ix3 n p k)

/-! ## A sum over the last two axes of a [128, 10, 10] array -/

/-- Dropping the last two coordinates of (a, b, c) gives n exactly when a = n. -/
theorem drop12_iff (h' : S128x10x10.ReducesTo [1, 2] S128) (i : S128x10x10.Idx) (n : Fin 128) :
    h'.drop i = ix1 n ↔ i 0 = n := by
  constructor
  · intro e
    have h1 := congrArg Fin.val (congrFun e 0)
    exact Fin.ext ((Shape.ReducesTo.drop_apply_val_of_eq h' i 0 0).symm.trans h1)
  · intro e
    funext d
    match d with
    | ⟨0, _⟩ => exact Fin.ext ((Shape.ReducesTo.drop_apply_val_of_eq h' i 0 0).trans (congrArg Fin.val e))

/-- The sum over the indices whose first coordinate is n is the double sum over the other two coordinates. -/
theorem sum_filter_drop12 (h' : S128x10x10.ReducesTo [1, 2] S128) (y : S128x10x10.Idx → EReal) (n : Fin 128) :
    ∑ i ∈ Finset.univ.filter (fun i => h'.drop i = ix1 n), y i = ∑ i : Fin 10, ∑ j : Fin 10, y (ix3 n i j) := by
  rw [← Finset.sum_product']
  refine Finset.sum_nbij' (fun i => ((i 1 : Fin 10), (i 2 : Fin 10))) (fun p => ix3 n p.1 p.2) ?_ ?_ ?_ ?_ ?_
  · intro a _; exact Finset.mem_product.mpr ⟨Finset.mem_univ _, Finset.mem_univ _⟩
  · intro b _
    exact Finset.mem_filter.mpr ⟨Finset.mem_univ _, (drop12_iff h' _ n).mpr rfl⟩
  · intro a ha
    have e : a 0 = n := (drop12_iff h' a n).mp (Finset.mem_filter.mp ha).2
    funext d
    match d with
    | ⟨0, _⟩ => exact e.symm
    | ⟨1, _⟩ => rfl
    | ⟨2, _⟩ => rfl
  · intro b _; rfl
  · intro a ha
    have e : a 0 = n := (drop12_iff h' a n).mp (Finset.mem_filter.mp ha).2
    refine congrArg y ?_
    funext d
    match d with
    | ⟨0, _⟩ => exact e
    | ⟨1, _⟩ => rfl
    | ⟨2, _⟩ => rfl

/-- The host's sum of a [128, 10, 10] array over its last two axes, at n: the initial value plus the double sum. -/
theorem reduceAdd12_apply (y : S128x10x10.Idx → EReal) (init : S_.Idx → EReal) (n : Fin 128) :
    Host.reduceAdd (F := Ideal) (φ := .f32) y init reducesTo_S128x10x10_S128_d1_2 h_S_ (ix1 n)
      = init (Shape.Idx.first h_S_) + ∑ i : Fin 10, ∑ j : Fin 10, y (ix3 n i j) := by
  show Ideal.hostReduceAdd reducesTo_S128x10x10_S128_d1_2 y (init (Shape.Idx.first h_S_)) (ix1 n) = _
  unfold Ideal.hostReduceAdd
  exact congrArg (init (Shape.Idx.first h_S_) + ·) (sum_filter_drop12 reducesTo_S128x10x10_S128_d1_2 y n)

section Sample

variable (x0 : (⟨S16x8x17x128x128, .f32⟩ : BufTy).Contents (Elt Ideal)) (x1 : (⟨S16x8x10x17x2, .f32⟩ : BufTy).Contents (Elt Ideal)) (n : Fin 128)

/-! ## The within loss -/

theorem idx56 (p : Fin 10) (k : Fin 17) : idx_main_v56 (ix2 n p) k = ix3 n p k := by
  funext a; match a with | ⟨0, _⟩ => rfl | ⟨1, _⟩ => rfl | ⟨2, _⟩ => rfl
theorem idx60 (p : Fin 10) (k : Fin 17) : idx_main_v60 (ix2 n p) k = ix3 n p k := by
  funext a; match a with | ⟨0, _⟩ => rfl | ⟨1, _⟩ => rfl | ⟨2, _⟩ => rfl
theorem idx67 (p : Fin 10) (k : Fin 17) : idx_main_v67 (ix2 n p) k = ix3 n p k := by
  funext a; match a with | ⟨0, _⟩ => rfl | ⟨1, _⟩ => rfl | ⟨2, _⟩ => rfl
theorem idx72 (p : Fin 10) : idx_main_v72 (ix1 n) p = ix2 n p := by
  funext a; match a with | ⟨0, _⟩ => rfl | ⟨1, _⟩ => rfl

/-- %56 at (n, p): the weight person p's keypoints carry together. -/
theorem cnt_eq (p : Fin 10) : val_main_v56 (F := Ideal) x1 (ix2 n p) = cnt (wts x1 n) p := by
  refine (val_main_v56_apply x1 (ix2 n p)).trans ?_
  refine (congrArg (· + _) Ideal.ofBits_zero_f32).trans ((zero_add _).trans ?_)
  exact Finset.sum_congr rfl fun k _ => congrArg (val_main_v55 (F := Ideal) x1) (idx56 n p k)

theorem one57 (i : S128x10.Idx) : val_main_v57 (F := Ideal) i = w1 := val_main_v57_apply i

/-- %58 at (n, p): that weight floored at one. -/
theorem safe_eq (p : Fin 10) : val_main_v58 (F := Ideal) x1 (ix2 n p) = safe (wts x1 n) p :=
  congrArg₂ max (cnt_eq x1 n p) (one57 _)

/-- %60 at (n, p): the weighted sum of person p's embeddings. -/
theorem wsum_eq (p : Fin 10) :
    val_main_v60 (F := Ideal) x0 x1 (ix2 n p) = ∑ k : Fin 17, vals x0 x1 n p k * wts x1 n p k := by
  refine (val_main_v60_apply x0 x1 (ix2 n p)).trans ?_
  refine (congrArg (· + _) Ideal.ofBits_zero_f32).trans ((zero_add _).trans ?_)
  exact Finset.sum_congr rfl fun k _ => congrArg (val_main_v59 (F := Ideal) x0 x1) (idx60 n p k)

/-- %61 at (n, p): person p's embedding. -/
theorem emb_eq (p : Fin 10) : val_main_v61 (F := Ideal) x0 x1 (ix2 n p) = emb (vals x0 x1 n) (wts x1 n) p :=
  congrArg₂ Ideal.div (wsum_eq x0 x1 n p) (safe_eq x1 n p)

/-- %63 at (n, p, k): person p's embedding, repeated along the keypoints. -/
theorem emb3_eq (p : Fin 10) (k : Fin 17) :
    val_main_v63 (F := Ideal) x0 x1 (ix3 n p k) = emb (vals x0 x1 n) (wts x1 n) p := by
  refine (val_main_v63_apply x0 x1 _).trans ((val_main_v62_apply x0 x1 _).trans ?_)
  refine (congrArg (val_main_v61 (F := Ideal) x0 x1) ?_).trans (emb_eq x0 x1 n p)
  funext a; match a with | ⟨0, _⟩ => rfl | ⟨1, _⟩ => rfl

/-- %64 at (n, p, k): the keypoint's deviation from the person's embedding. -/
theorem dev_eq (p : Fin 10) (k : Fin 17) :
    val_main_v64 (F := Ideal) x0 x1 (ix3 n p k) = vals x0 x1 n p k - emb (vals x0 x1 n) (wts x1 n) p :=
  congrArg (fun e => vals x0 x1 n p k - e) (emb3_eq x0 x1 n p k)

/-- %66 at (n, p, k): the squared deviation times the weight. -/
theorem sqdev_eq (p : Fin 10) (k : Fin 17) :
    val_main_v66 (F := Ideal) x0 x1 (ix3 n p k)
      = (vals x0 x1 n p k - emb (vals x0 x1 n) (wts x1 n) p) * (vals x0 x1 n p k - emb (vals x0 x1 n) (wts x1 n) p)
          * wts x1 n p k :=
  congrArg (fun d => d * d * wts x1 n p k) (dev_eq x0 x1 n p k)

/-- %67 at (n, p): the weighted sum of squared deviations. -/
theorem sqsum_eq (p : Fin 10) :
    val_main_v67 (F := Ideal) x0 x1 (ix2 n p)
      = ∑ k : Fin 17, (vals x0 x1 n p k - emb (vals x0 x1 n) (wts x1 n) p)
          * (vals x0 x1 n p k - emb (vals x0 x1 n) (wts x1 n) p) * wts x1 n p k := by
  refine (val_main_v67_apply x0 x1 (ix2 n p)).trans ?_
  refine (congrArg (· + _) Ideal.ofBits_zero_f32).trans ((zero_add _).trans ?_)
  exact Finset.sum_congr rfl fun k _ =>
    (congrArg (val_main_v66 (F := Ideal) x0 x1) (idx67 n p k)).trans (sqdev_eq x0 x1 n p k)

/-- %68 at (n, p): person p's weighted mean squared deviation. -/
theorem spread_eq (p : Fin 10) :
    val_main_v68 (F := Ideal) x0 x1 (ix2 n p) = spread (vals x0 x1 n) (wts x1 n) p :=
  congrArg₂ Ideal.div (sqsum_eq x0 x1 n p) (safe_eq x1 n p)

theorem zero69 (i : S128x10.Idx) : val_main_v69 (F := Ideal) i = w0 := val_main_v69_apply i

/-- %70 at (n, p): whether person p carries any weight. -/
theorem present_eq (p : Fin 10) : val_main_v70 (F := Ideal) x1 (ix2 n p) = present (wts x1 n) p :=
  congrArg₂ (Ideal.cmp .ogt) (cnt_eq x1 n p) (zero69 _)

theorem zero_call3 (i : S128x10.Idx) : val_main_call3_v1 (F := Ideal) i = w0 := val_main_call3_v1_apply i

/-- %71 at (n, p): the person's spread where the person is present, else 0. -/
theorem term_eq (p : Fin 10) :
    val_main_v71 (F := Ideal) x0 x1 (ix2 n p)
      = Scalar.select (present (wts x1 n) p) (spread (vals x0 x1 n) (wts x1 n) p) w0 := by
  refine (val_main_v71_apply x0 x1 (ix2 n p)).trans ?_
  rw [present_eq x1 n p, spread_eq x0 x1 n p, zero_call3 (ix2 n p)]

/-- %72 at n: the present persons' spreads, summed. -/
theorem wsumP_eq :
    val_main_v72 (F := Ideal) x0 x1 (ix1 n)
      = ∑ p : Fin 10, Scalar.select (present (wts x1 n) p) (spread (vals x0 x1 n) (wts x1 n) p) w0 := by
  refine (val_main_v72_apply x0 x1 (ix1 n)).trans ?_
  refine (congrArg (· + _) Ideal.ofBits_zero_f32).trans ((zero_add _).trans ?_)
  exact Finset.sum_congr rfl fun p _ =>
    (congrArg (val_main_v71 (F := Ideal) x0 x1) (idx72 n p)).trans (term_eq x0 x1 n p)

theorem ten73 (i : S128.Idx) : val_main_v73 (F := Ideal) i = w10 := val_main_v73_apply i

/-- %74 at n: the within loss of sample n. -/
theorem within_eq : val_main_v74 (F := Ideal) x0 x1 (ix1 n) = within1 (vals x0 x1 n) (wts x1 n) :=
  congrArg₂ Ideal.div (wsumP_eq x0 x1 n) (ten73 _)

/-! ## The across loss -/

theorem zero75 (i : S128x10.Idx) : val_main_v75 (F := Ideal) i = w0 := val_main_v75_apply i

/-- %77 at (n, p): the presence bit as a number. -/
theorem pvalid_eq (p : Fin 10) : val_main_v77 (F := Ideal) x1 (ix2 n p) = bit (present (wts x1 n) p) := by
  refine (val_main_v77_apply x1 (ix2 n p)).trans ((uitofp_bit _).trans (congrArg bit ?_))
  exact congrArg₂ (Ideal.cmp .ogt) (cnt_eq x1 n p) (zero75 _)

/-- %80 at (n, i, j): person j's embedding. -/
theorem embJ_eq (i j : Fin 10) :
    val_main_v80 (F := Ideal) x0 x1 (ix3 n i j) = emb (vals x0 x1 n) (wts x1 n) j := by
  refine (val_main_v80_apply x0 x1 _).trans ((val_main_v78_apply x0 x1 _).trans ?_)
  refine (congrArg (val_main_v61 (F := Ideal) x0 x1) ?_).trans (emb_eq x0 x1 n j)
  funext a; match a with | ⟨0, _⟩ => rfl | ⟨1, _⟩ => rfl

/-- %81 at (n, i, j): person i's embedding. -/
theorem embI_eq (i j : Fin 10) :
    val_main_v81 (F := Ideal) x0 x1 (ix3 n i j) = emb (vals x0 x1 n) (wts x1 n) i := by
  refine (val_main_v81_apply x0 x1 _).trans ((val_main_v79_apply x0 x1 _).trans ?_)
  refine (congrArg (val_main_v61 (F := Ideal) x0 x1) ?_).trans (emb_eq x0 x1 n i)
  funext a; match a with | ⟨0, _⟩ => rfl | ⟨1, _⟩ => rfl

/-- %82 at (n, i, j): the difference of the two embeddings. -/
theorem diff_eq (i j : Fin 10) :
    val_main_v82 (F := Ideal) x0 x1 (ix3 n i j)
      = emb (vals x0 x1 n) (wts x1 n) j - emb (vals x0 x1 n) (wts x1 n) i :=
  congrArg₂ (fun a b : EReal => a - b) (embJ_eq x0 x1 n i j) (embI_eq x0 x1 n i j)

/-- %85 at (n, i, j): person i's presence number. -/
theorem pvI_eq (i j : Fin 10) : val_main_v85 (F := Ideal) x1 (ix3 n i j) = bit (present (wts x1 n) i) := by
  refine (val_main_v85_apply x1 _).trans ((val_main_v83_apply x1 _).trans ?_)
  refine (congrArg (val_main_v77 (F := Ideal) x1) ?_).trans (pvalid_eq x1 n i)
  funext a; match a with | ⟨0, _⟩ => rfl | ⟨1, _⟩ => rfl

/-- %86 at (n, i, j): person j's presence number. -/
theorem pvJ_eq (i j : Fin 10) : val_main_v86 (F := Ideal) x1 (ix3 n i j) = bit (present (wts x1 n) j) := by
  refine (val_main_v86_apply x1 _).trans ((val_main_v84_apply x1 _).trans ?_)
  refine (congrArg (val_main_v77 (F := Ideal) x1) ?_).trans (pvalid_eq x1 n j)
  funext a; match a with | ⟨0, _⟩ => rfl | ⟨1, _⟩ => rfl

end Sample

/-- %92 at (i, j): whether the two persons are one. -/
theorem eye_eq (i j : Fin 10) : val_main_v92 (F := Ideal) (ix2 i j) = same i j := by
  show IntOp.cmpi .eq (IntOp.addi (BitVec.ofNat 32 i.val) (val_main_v90 (F := Ideal) (ix2 i j))) (BitVec.ofNat 32 j.val)
    = same i j
  rw [val_main_v90_apply]
  show IntOp.cmpi .eq (BitVec.ofNat 32 i.val + 0#32) (BitVec.ofNat 32 j.val) = same i j
  rw [BitVec.add_zero]
  rfl

theorem one94 (i : S10x10.Idx) : val_main_v94 (F := Ideal) i = w1 := val_main_v94_apply i

/-- %95 at (i, j): 1 off the diagonal, 0 on it. -/
theorem offdiag_eq (i j : Fin 10) : val_main_v95 (F := Ideal) (ix2 i j) = w1 - bit (same i j) := by
  refine (val_main_v95_apply (F := Ideal) (ix2 i j)).trans ?_
  refine congrArg₂ (fun a b : EReal => a - b) (one94 _) ?_
  exact (val_main_v93_apply (F := Ideal) (ix2 i j)).trans ((uitofp_bit _).trans (congrArg bit (eye_eq i j)))

/-- %97 at (n, i, j): the same, for every sample. -/
theorem offdiag3_eq (n : Fin 128) (i j : Fin 10) : val_main_v97 (F := Ideal) (ix3 n i j) = w1 - bit (same i j) := by
  refine (val_main_v97_apply (F := Ideal) _).trans ((val_main_v96_apply (F := Ideal) _).trans ?_)
  refine (congrArg (val_main_v95 (F := Ideal)) ?_).trans (offdiag_eq i j)
  funext a; match a with | ⟨0, _⟩ => rfl | ⟨1, _⟩ => rfl

section Sample2

variable (x0 : (⟨S16x8x17x128x128, .f32⟩ : BufTy).Contents (Elt Ideal)) (x1 : (⟨S16x8x10x17x2, .f32⟩ : BufTy).Contents (Elt Ideal)) (n : Fin 128)

/-- %98 at (n, i, j): 1 for an ordered pair of distinct present persons, else 0. -/
theorem pair_eq (i j : Fin 10) : val_main_v98 (F := Ideal) x1 (ix3 n i j) = pair (wts x1 n) i j := by
  show val_main_v85 (F := Ideal) x1 (ix3 n i j) * val_main_v86 (F := Ideal) x1 (ix3 n i j)
      * val_main_v97 (F := Ideal) (ix3 n i j) = pair (wts x1 n) i j
  rw [pvI_eq x1 n i j, pvJ_eq x1 n i j, offdiag3_eq n i j]
  rfl

theorem one100 (i : S128x10x10.Idx) : val_main_v100 (F := Ideal) i = w1 := val_main_v100_apply i
theorem zero102 (i : S128x10x10.Idx) : val_main_v102 (F := Ideal) i = w0 := val_main_v102_apply i

/-- %104 at (n, i, j): the pair's hinge. -/
theorem hinge_eq (i j : Fin 10) :
    val_main_v104 (F := Ideal) x0 x1 (ix3 n i j) = hinge (vals x0 x1 n) (wts x1 n) i j := by
  show max (val_main_v100 (F := Ideal) (ix3 n i j)
        - max (val_main_v82 (F := Ideal) x0 x1 (ix3 n i j)) (-(val_main_v82 (F := Ideal) x0 x1 (ix3 n i j))))
      (val_main_v102 (F := Ideal) (ix3 n i j)) * val_main_v98 (F := Ideal) x1 (ix3 n i j)
    = hinge (vals x0 x1 n) (wts x1 n) i j
  rw [one100, zero102, diff_eq x0 x1 n i j, pair_eq x1 n i j]
  rfl

/-- %105 at n: the number of ordered pairs of distinct present persons. -/
theorem pairs_eq : val_main_v105 (F := Ideal) x1 (ix1 n) = pairs (wts x1 n) := by
  unfold val_main_v105
  refine (reduceAdd12_apply (val_main_v98 (F := Ideal) x1) (val_main_cst_28 (F := Ideal)) n).trans ?_
  refine (congrArg (· + _) Ideal.ofBits_zero_f32).trans ((zero_add _).trans ?_)
  exact Finset.sum_congr rfl fun i _ => Finset.sum_congr rfl fun j _ => pair_eq x1 n i j

/-- %108 at n: the hinges, summed over all pairs. -/
theorem hsum_eq :
    val_main_v108 (F := Ideal) x0 x1 (ix1 n)
      = ∑ i : Fin 10, ∑ j : Fin 10, hinge (vals x0 x1 n) (wts x1 n) i j := by
  unfold val_main_v108
  refine (reduceAdd12_apply (val_main_v104 (F := Ideal) x0 x1) (val_main_cst_30 (F := Ideal)) n).trans ?_
  refine (congrArg (· + _) Ideal.ofBits_zero_f32).trans ((zero_add _).trans ?_)
  exact Finset.sum_congr rfl fun i _ => Finset.sum_congr rfl fun j _ => hinge_eq x0 x1 n i j

theorem zero106 (i : S128.Idx) : val_main_v106 (F := Ideal) i = w0 := val_main_v106_apply i
theorem one109 (i : S128.Idx) : val_main_v109 (F := Ideal) i = w1 := val_main_v109_apply i
theorem zero_call4 (i : S128.Idx) : val_main_call4_v1 (F := Ideal) i = w0 := val_main_call4_v1_apply i

/-- %107 at n: whether there is a pair. -/
theorem anypair_eq : val_main_v107 (F := Ideal) x1 (ix1 n) = Ideal.cmp .ogt (pairs (wts x1 n)) w0 :=
  congrArg₂ (Ideal.cmp .ogt) (pairs_eq x1 n) (zero106 _)

/-- %111 at n: the hinges' sum over the number of pairs floored at one. -/
theorem quot_eq :
    val_main_v111 (F := Ideal) x0 x1 (ix1 n)
      = Ideal.div (∑ i : Fin 10, ∑ j : Fin 10, hinge (vals x0 x1 n) (wts x1 n) i j) (max (pairs (wts x1 n)) w1) :=
  congrArg₂ Ideal.div (hsum_eq x0 x1 n) (congrArg₂ max (pairs_eq x1 n) (one109 _))

/-- %112 at n: the across loss of sample n. -/
theorem across_eq : val_main_v112 (F := Ideal) x0 x1 (ix1 n) = across1 (vals x0 x1 n) (wts x1 n) := by
  refine (val_main_v112_apply x0 x1 (ix1 n)).trans ?_
  rw [anypair_eq x1 n, quot_eq x0 x1 n, zero_call4 (ix1 n)]
  rfl

end Sample2

end Cert.GroupLoss.Ref

end
-- ==== Proof.RefGather.lean ====
/-
  The reference's gather reads the reshaped heat maps at the clipped key-point coordinates.

  The index vector of the gather has four components per (sample n, person p, key point k): the sample number, the
  key-point number, the clipped row and the clipped column. Each passes through a "negative index" normalisation
  select (x < 0, x + size, x) that never fires, because every component is a nonnegative number below its axis' extent;
  for the same reason the gather's clamp of each start index into range is the identity. So the gather at (n, p, k) is
  the heat map of sample n, key point k, at (row, column) = the clipped coordinates read as natural numbers.
-/
import proofs.«164034_j30863634989288_2_alg».proof.Proof.RefRead
import proofs.«164034_j30863634989288_2_alg».proof.Proof.Spec

noncomputable section

namespace Cert.GroupLoss.Ref

open Idealize.ShloMosaic Idealize.ShloMosaic.ValueIdx Cert.ReferenceIdeal Cert.ReferenceIdeal.Read Cert.GroupLoss

/-! ## The clip, on 32-bit words -/

theorem toInt_127 : (127#32 : BitVec 32).toInt = 127 := by decide
theorem toInt_0 : (0#32 : BitVec 32).toInt = 0 := by decide

/-- a 32-bit word clipped to [0, 127] as signed numbers is, as a natural number, below 128 -/
theorem clip_lt (x : BitVec 32) : (IntOp.minsi 127#32 (IntOp.maxsi 0#32 x)).toNat < 128 := by
  have hx := x.isLt
  have hI := BitVec.toInt_eq_toNat_cond x
  unfold IntOp.minsi IntOp.maxsi
  by_cases h0 : x.slt 0#32 = true
  · rw [if_pos h0]
    have : ¬ ((127#32 : BitVec 32).slt 0#32 = true) := by decide
    rw [if_neg this]
    decide
  · rw [if_neg h0]
    by_cases h1 : (127#32 : BitVec 32).slt x = true
    · rw [if_pos h1]; decide
    · rw [if_neg h1]
      rw [BitVec.slt, decide_eq_true_eq, toInt_0] at h0
      rw [BitVec.slt, decide_eq_true_eq, toInt_127] at h1
      split at hI <;> omega

/-- a word below 2^31 as a natural number is not negative as a signed number: the comparison "x < 0" is the bit 0 -/
theorem slt_zero_of_lt {x : BitVec 32} (h : x.toNat < 2147483648) : IntOp.cmpi .slt x 0#32 = 0#1 := by
  have hI := BitVec.toInt_eq_toNat_cond x
  have hn : ¬ (x.slt 0#32 = true) := by
    rw [BitVec.slt, decide_eq_true_eq, toInt_0]
    split at hI <;> omega
  show BitVec.ofBool (x.slt 0#32) = 0#1
  rw [Bool.eq_false_iff.mpr hn]; rfl

/-- such a word read as a signed number and then as a natural number is the word -/
theorem toInt_toNat_of_lt {x : BitVec 32} (h : x.toNat < 2147483648) : x.toInt.toNat = x.toNat := by
  have hI := BitVec.toInt_eq_toNat_cond x
  split at hI <;> omega

/-- the normalisation of a possibly negative index, select (x < 0, x + size, x), leaves such a word as it is -/
theorem norm_eq {x : BitVec 32} (h : x.toNat < 2147483648) (y : BitVec 32) :
    Scalar.select (IntOp.cmpi .slt x 0#32) y x = x := by
  rw [slt_zero_of_lt h, select_zero]

/-- the 32-bit word of a number below 2^32 reads back as the number -/
theorem toNat_ofNat_of_lt {m : Nat} (h : m < 4294967296) : (BitVec.ofNat 32 m).toNat = m := by
  rw [BitVec.toNat_ofNat]; exact Nat.mod_eq_of_lt h

/-! ## The clipped coordinates -/

/-- %21 (xc) at an index: the column coordinate %7 clipped to [0, 127] -/
theorem v21_eq (x1 : (⟨S16x8x10x17x2, .f32⟩ : BufTy).Contents (Elt Ideal)) (i : S128x10x17.Idx) :
    val_main_v21 (F := Ideal) x1 i = IntOp.minsi 127#32 (IntOp.maxsi 0#32 (val_main_v7 (F := Ideal) x1 i)) := by
  rw [val_main_v21_apply, val_main_call1_v4_apply, val_main_call1_v3_apply, val_main_c_4_apply,
    val_main_call1_v2_apply, val_main_call1_v1_apply, val_main_call1_v0_apply, val_main_c_3_apply]

/-- %22 (yc) at an index: the row coordinate %9 clipped to [0, 127] -/
theorem v22_eq (x1 : (⟨S16x8x10x17x2, .f32⟩ : BufTy).Contents (Elt Ideal)) (i : S128x10x17.Idx) :
    val_main_v22 (F := Ideal) x1 i = IntOp.minsi 127#32 (IntOp.maxsi 0#32 (val_main_v9 (F := Ideal) x1 i)) := by
  rw [val_main_v22_apply, val_main_call2_v4_apply, val_main_call2_v3_apply, val_main_c_6_apply,
    val_main_call2_v2_apply, val_main_call2_v1_apply, val_main_call2_v0_apply, val_main_c_5_apply]

/-- the reference's clipped row and column coordinates (%22 = yc, %21 = xc) are below 128 -/
theorem yc_lt (x1 : (⟨S16x8x10x17x2, .f32⟩ : BufTy).Contents (Elt Ideal)) (i : S128x10x17.Idx) :
    (val_main_v22 (F := Ideal) x1 i).toNat < 128 := by
  rw [v22_eq]; exact clip_lt _

theorem xc_lt (x1 : (⟨S16x8x10x17x2, .f32⟩ : BufTy).Contents (Elt Ideal)) (i : S128x10x17.Idx) :
    (val_main_v21 (F := Ideal) x1 i).toNat < 128 := by
  rw [v21_eq]; exact clip_lt _

/-! ## The gather's dimension numbers read at an index

All four operand axes are collapsed and named, in order, by the start index map; the slices have one element. So the
result at (n, p, k) is the operand at the four components of the index vector at (n, p, k), each read as a signed
number and clamped into its axis. -/

/-- the gather's dimension numbers -/
abbrev gd : GatherDims S128x17x128x128 S128x10x17x4 S128x10x17 :=
  gather_S128x17x128x128_S128x10x17x4_S128x10x17_n_0123_n_n_0123_3_1111

/-- the start of the slice on operand axis c: component c of the index vector, clamped -/
theorem gd_start {w : Nat} (idx : IVec S128x10x17x4 w) (n : Fin 128) (p : Fin 10) (k : Fin 17) (c : Fin 4) :
    gd.start (ix3 n p k) idx c = min (idx (ix4 n p k c)).toInt.toNat (S128x17x128x128.size c - 1) := by
  unfold GatherDims.start
  have hm : c ∈ gd.startIndexMap := by revert c; decide
  rw [dif_pos hm]
  have hsi : gd.siIdx (ix3 n p k) ⟨List.idxOf c gd.startIndexMap, List.idxOf_lt_length_iff.2 hm⟩ = ix4 n p k c := by
    funext b; refine Fin.ext ?_
    match c, b with
    | ⟨0, _⟩, ⟨0, _⟩ => rfl
    | ⟨0, _⟩, ⟨1, _⟩ => rfl
    | ⟨0, _⟩, ⟨2, _⟩ => rfl
    | ⟨0, _⟩, ⟨3, _⟩ => rfl
    | ⟨1, _⟩, ⟨0, _⟩ => rfl
    | ⟨1, _⟩, ⟨1, _⟩ => rfl
    | ⟨1, _⟩, ⟨2, _⟩ => rfl
    | ⟨1, _⟩, ⟨3, _⟩ => rfl
    | ⟨2, _⟩, ⟨0, _⟩ => rfl
    | ⟨2, _⟩, ⟨1, _⟩ => rfl
    | ⟨2, _⟩, ⟨2, _⟩ => rfl
    | ⟨2, _⟩, ⟨3, _⟩ => rfl
    | ⟨3, _⟩, ⟨0, _⟩ => rfl
    | ⟨3, _⟩, ⟨1, _⟩ => rfl
    | ⟨3, _⟩, ⟨2, _⟩ => rfl
    | ⟨3, _⟩, ⟨3, _⟩ => rfl
  rw [hsi]
  match c with
  | ⟨0, _⟩ => rfl
  | ⟨1, _⟩ => rfl
  | ⟨2, _⟩ => rfl
  | ⟨3, _⟩ => rfl

/-- the gather at (n, p, k) is the operand at (a, b, c, d) when the four clamped components are a, b, c, d -/
theorem gd_apply {α : Type} {w : Nat} (x : S128x17x128x128.Idx → α) (idx : IVec S128x10x17x4 w)
    (n : Fin 128) (p : Fin 10) (k : Fin 17) (a : Fin 128) (b : Fin 17) (c d : Fin 128)
    (ha : min (idx (ix4 n p k 0)).toInt.toNat 127 = a.val)
    (hb : min (idx (ix4 n p k 1)).toInt.toNat 16 = b.val)
    (hc : min (idx (ix4 n p k 2)).toInt.toNat 127 = c.val)
    (hd : min (idx (ix4 n p k 3)).toInt.toNat 127 = d.val) :
    Host.gather gd x idx (ix3 n p k) = x (ix4 a b c d) := by
  unfold Host.gather
  congr 1
  funext e
  refine Fin.ext ?_
  show gd.start (ix3 n p k) idx e + gd.batchCoord (ix3 n p k) e + gd.offCoord (ix3 n p k) e = _
  have hk : e ∉ gd.sKept := fun h => ((gd.mem_sKept _).mp h).1 (by revert e; decide)
  rw [gd.batchCoord_eq_zero _ _ List.not_mem_nil, gd.offCoord_eq_zero _ _ hk, gd_start]
  match e with
  | ⟨0, _⟩ => exact ha
  | ⟨1, _⟩ => exact hb
  | ⟨2, _⟩ => exact hc
  | ⟨3, _⟩ => exact hd

/-! ## Four unit columns concatenated along the last axis, read at an index -/

section Cat4

variable {α : Type} (y0 y1 y2 y3 : S128x10x17x1.Idx → α)
  (h : Shape.Concatenates
    ([(⟨S128x10x17x1, y0⟩ : (s : Shape) × (s.Idx → α)), ⟨S128x10x17x1, y1⟩, ⟨S128x10x17x1, y2⟩, ⟨S128x10x17x1, y3⟩].map (·.1))
    S128x10x17x4 3)
  (n : Fin 128) (p : Fin 10) (k : Fin 17)

/-- off the concatenated axis a column's index has the whole's coordinates -/
theorem piece_coords (c : Fin 4) (b : Fin S128x10x17x1.rank)
    (hb : b.cast (rfl : S128x10x17x1.rank = S128x10x17x4.rank) ≠ 3) :
    ((ix4 n p k (0 : Fin 1) : S128x10x17x1.Idx) b).val = ((ix4 n p k c : S128x10x17x4.Idx) (b.cast rfl)).val := by
  match b with
  | ⟨0, _⟩ => rfl
  | ⟨1, _⟩ => rfl
  | ⟨2, _⟩ => rfl
  | ⟨3, _⟩ => exact absurd rfl hb

theorem cat4_0 : concatenate S128x10x17x4 3 [⟨S128x10x17x1, y0⟩, ⟨S128x10x17x1, y1⟩, ⟨S128x10x17x1, y2⟩, ⟨S128x10x17x1, y3⟩] h
    (ix4 n p k 0) = y0 (ix4 n p k 0) :=
  concatenate_apply_piece 3 _ h (ix4 n p k 0) 0 (by show 0 < 4; omega) S128x10x17x1 y0 rfl rfl 0 rfl (ix4 n p k 0)
    (piece_coords n p k 0) rfl

theorem cat4_1 : concatenate S128x10x17x4 3 [⟨S128x10x17x1, y0⟩, ⟨S128x10x17x1, y1⟩, ⟨S128x10x17x1, y2⟩, ⟨S128x10x17x1, y3⟩] h
    (ix4 n p k 1) = y1 (ix4 n p k 0) :=
  concatenate_apply_piece 3 _ h (ix4 n p k 1) 1 (by show 1 < 4; omega) S128x10x17x1 y1 rfl rfl 1 rfl (ix4 n p k 0)
    (piece_coords n p k 1) rfl

theorem cat4_2 : concatenate S128x10x17x4 3 [⟨S128x10x17x1, y0⟩, ⟨S128x10x17x1, y1⟩, ⟨S128x10x17x1, y2⟩, ⟨S128x10x17x1, y3⟩] h
    (ix4 n p k 2) = y2 (ix4 n p k 0) :=
  concatenate_apply_piece 3 _ h (ix4 n p k 2) 2 (by show 2 < 4; omega) S128x10x17x1 y2 rfl rfl 2 rfl (ix4 n p k 0)
    (piece_coords n p k 2) rfl

theorem cat4_3 : concatenate S128x10x17x4 3 [⟨S128x10x17x1, y0⟩, ⟨S128x10x17x1, y1⟩, ⟨S128x10x17x1, y2⟩, ⟨S128x10x17x1, y3⟩] h
    (ix4 n p k 3) = y3 (ix4 n p k 0) :=
  concatenate_apply_piece 3 _ h (ix4 n p k 3) 3 (by show 3 < 4; omega) S128x10x17x1 y3 rfl rfl 3 rfl (ix4 n p k 0)
    (piece_coords n p k 3) rfl

end Cat4

/-! ## The index vector %53, one component at a time -/

section Components

variable (x1 : (⟨S16x8x10x17x2, .f32⟩ : BufTy).Contents (Elt Ideal)) (n : Fin 128) (p : Fin 10) (k : Fin 17)

/-- component 0 of the index vector is the column %49 -/
theorem v53_0 : val_main_v53 (F := Ideal) x1 (ix4 n p k 0) = val_main_v49 (F := Ideal) (ix4 n p k 0) := by
  unfold val_main_v53
  exact cat4_0 _ _ _ _ _ n p k

/-- component 1 is the column %50 -/
theorem v53_1 : val_main_v53 (F := Ideal) x1 (ix4 n p k 1) = val_main_v50 (F := Ideal) (ix4 n p k 0) := by
  unfold val_main_v53
  exact cat4_1 _ _ _ _ _ n p k

/-- component 2 is the column %51 -/
theorem v53_2 : val_main_v53 (F := Ideal) x1 (ix4 n p k 2) = val_main_v51 (F := Ideal) x1 (ix4 n p k 0) := by
  unfold val_main_v53
  exact cat4_2 _ _ _ _ _ n p k

/-- component 3 is the column %52 -/
theorem v53_3 : val_main_v53 (F := Ideal) x1 (ix4 n p k 3) = val_main_v52 (F := Ideal) x1 (ix4 n p k 0) := by
  unfold val_main_v53
  exact cat4_3 _ _ _ _ _ n p k

/-- the column %49 is the sample number: the iota %23 through a normalisation that does not fire -/
theorem v49_eq : val_main_v49 (F := Ideal) (ix4 n p k 0) = BitVec.ofNat 32 n.val := by
  rw [val_main_v49_apply, val_main_v47_apply, val_main_v31_apply, val_main_v28_apply, val_main_v27_apply,
    val_main_c_7_apply, val_main_v24_apply, val_main_v23_apply]
  exact norm_eq (x := BitVec.ofNat 32 n.val)
    (by rw [toNat_ofNat_of_lt (by have := n.isLt; omega)]; have := n.isLt; omega) _

/-- the column %50 is the key-point number: the iota %25 through a normalisation that does not fire -/
theorem v50_eq : val_main_v50 (F := Ideal) (ix4 n p k 0) = BitVec.ofNat 32 k.val := by
  rw [val_main_v50_apply, val_main_v48_apply, val_main_v36_apply, val_main_v33_apply, val_main_v32_apply,
    val_main_c_9_apply, val_main_v26_apply, val_main_v25_apply]
  exact norm_eq (x := BitVec.ofNat 32 k.val)
    (by rw [toNat_ofNat_of_lt (by have := k.isLt; omega)]; have := k.isLt; omega) _

/-- the index a unit-axis broadcast reads is the index without the unit axis -/
theorem idx51_eq : idx_main_v51 (ix4 n p k (0 : Fin 1)) = ix3 n p k := by
  funext a
  match a with
  | ⟨0, _⟩ => rfl
  | ⟨1, _⟩ => rfl
  | ⟨2, _⟩ => rfl

theorem idx52_eq : idx_main_v52 (ix4 n p k (0 : Fin 1)) = ix3 n p k := by
  funext a
  match a with
  | ⟨0, _⟩ => rfl
  | ⟨1, _⟩ => rfl
  | ⟨2, _⟩ => rfl

/-- the column %51 is the clipped row: %22 through a normalisation that does not fire -/
theorem v51_eq : val_main_v51 (F := Ideal) x1 (ix4 n p k 0) = val_main_v22 (F := Ideal) x1 (ix3 n p k) := by
  rw [val_main_v51_apply, idx51_eq, val_main_v41_apply, val_main_v38_apply, val_main_v37_apply, val_main_c_11_apply]
  exact norm_eq (by have := yc_lt x1 (ix3 n p k); omega) _

/-- the column %52 is the clipped column: %21 through a normalisation that does not fire -/
theorem v52_eq : val_main_v52 (F := Ideal) x1 (ix4 n p k 0) = val_main_v21 (F := Ideal) x1 (ix3 n p k) := by
  rw [val_main_v52_apply, idx52_eq, val_main_v46_apply, val_main_v43_apply, val_main_v42_apply, val_main_c_13_apply]
  exact norm_eq (by have := xc_lt x1 (ix3 n p k); omega) _

end Components

/-! ## The gather -/

/-- the gather %54 at (n, p, k) is the reshaped heat maps %0 at (n, k, yc n p k, xc n p k) -/
theorem gather_eq (x0 : (⟨S16x8x17x128x128, .f32⟩ : BufTy).Contents (Elt Ideal))
    (x1 : (⟨S16x8x10x17x2, .f32⟩ : BufTy).Contents (Elt Ideal)) (n : Fin 128) (p : Fin 10) (k : Fin 17) :
    val_main_v54 (F := Ideal) x0 x1 (ix3 n p k)
      = val_main_v0 (F := Ideal) x0 (ix4 n k ⟨(val_main_v22 (F := Ideal) x1 (ix3 n p k)).toNat, yc_lt x1 _⟩
          ⟨(val_main_v21 (F := Ideal) x1 (ix3 n p k)).toNat, xc_lt x1 _⟩) := by
  unfold val_main_v54
  refine gd_apply (val_main_v0 (F := Ideal) x0) (val_main_v53 (F := Ideal) x1) n p k _ _ _ _ ?_ ?_ ?_ ?_
  · rw [v53_0, v49_eq, toInt_toNat_of_lt (by rw [toNat_ofNat_of_lt (by have := n.isLt; omega)]; have := n.isLt; omega),
      toNat_ofNat_of_lt (by have := n.isLt; omega)]
    have := n.isLt; omega
  · rw [v53_1, v50_eq, toInt_toNat_of_lt (by rw [toNat_ofNat_of_lt (by have := k.isLt; omega)]; have := k.isLt; omega),
      toNat_ofNat_of_lt (by have := k.isLt; omega)]
    have := k.isLt; omega
  · show min _ 127 = (val_main_v22 (F := Ideal) x1 (ix3 n p k)).toNat
    rw [v53_2, v51_eq, toInt_toNat_of_lt (by have := yc_lt x1 (ix3 n p k); omega)]
    have := yc_lt x1 (ix3 n p k); omega
  · show min _ 127 = (val_main_v21 (F := Ideal) x1 (ix3 n p k)).toNat
    rw [v53_3, v52_eq, toInt_toNat_of_lt (by have := xc_lt x1 (ix3 n p k); omega)]
    have := xc_lt x1 (ix3 n p k); omega

end Cert.GroupLoss.Ref

end
-- ==== Proof.KHost.lean ====
/-
  The host lines around the region, and the meeting of the two programs.

  BEFORE the region the kernel's program computes, from the key-point coordinates, the clipped row and column numbers
  and the validity weights — by the same operations, on the same argument, as the reference's first lines — and lays
  them out key-point-major. So the arrays the region finds are the reference's own stages, transposed: the coordinates
  are below 128, the weights are the reference's weights, and the entry of the heat maps the kernel selects for
  (sample, person, key point) is the entry the reference gathers. Hence row `n` of the kernel's result array holds the
  reference's within and across loss of sample `n`.

  AFTER the region both programs average over the 128 samples in the same words (times 1.0, summed from 0.0, over
  128.0); that mean is named once and never opened.
-/
import proofs.«164034_j30863634989288_2_alg».proof.Proof.Gen.KernelIdeal.Frame
import proofs.«164034_j30863634989288_2_alg».proof.Proof.KArray
import proofs.«164034_j30863634989288_2_alg».proof.Proof.RefRead
import proofs.«164034_j30863634989288_2_alg».proof.Proof.RefLoss
import proofs.«164034_j30863634989288_2_alg».proof.Proof.RefGather
import Idealize.ShloMosaic.Lib.StableHlo.Run
import Idealize.ShloMosaic.Lib.ValueLayout

set_option maxRecDepth 16384

noncomputable section

namespace Cert.GroupLoss.Ker

open Idealize.ShloMosaic Idealize.ShloMosaic.ValueIdx Idealize.ShloMosaic.TcCoe Idealize.SL.Sem
open Cert.KernelIdeal Cert.KernelIdeal.Gen Cert.GroupLoss

variable (m : (ℓ : Loc nD τ sig) → Buf (Elt Ideal) ℓ)

/-- The two arguments as launched: the heat maps and the key-point coordinates. -/
abbrev arg0 (c : Dev nD) : S16x8x17x128x128.Idx → EReal := m ((c : Thread nD τ).loc main_arg0)
abbrev arg1 (c : Dev nD) : S16x8x10x17x2.Idx → EReal := m ((c : Thread nD τ).loc main_arg1)

/-! ## Before the region -/

/-- The heat maps the region finds are the reference's reshaped heat maps. -/
theorem maps_host (c : Dev nD) : maps m c = Cert.ReferenceIdeal.Read.val_main_v0 (F := Ideal) (arg0 m c) := by
  dsimp only [maps, V, V0]
  simp only [hostOps0, hostOps0_1, hostOps0_2, hostOps0_3, hostOps0_4, hostOps0_5, hostOps0_6, List.flatten_cons,
    List.flatten_nil, List.append_nil, List.cons_append, List.nil_append]
  after_results_simp
  rfl

/-- The row numbers the region finds are the reference's clipped row numbers, key-point-major. -/
theorem rows_host (c : Dev nD) :
    rowsA m c = transpose S128x17x10 [0, 2, 1] (Cert.ReferenceIdeal.Read.val_main_v22 (F := Ideal) (arg1 m c))
      transposes_S128x10x17_S128x17x10_0_2_1 := by
  dsimp only [rowsA, V, V0]
  simp only [hostOps0, hostOps0_1, hostOps0_2, hostOps0_3, hostOps0_4, hostOps0_5, hostOps0_6, List.flatten_cons,
    List.flatten_nil, List.append_nil, List.cons_append, List.nil_append]
  after_results_simp
  rfl

/-- The column numbers likewise. -/
theorem cols_host (c : Dev nD) :
    colsA m c = transpose S128x17x10 [0, 2, 1] (Cert.ReferenceIdeal.Read.val_main_v21 (F := Ideal) (arg1 m c))
      transposes_S128x10x17_S128x17x10_0_2_1 := by
  dsimp only [colsA, V, V0]
  simp only [hostOps0, hostOps0_1, hostOps0_2, hostOps0_3, hostOps0_4, hostOps0_5, hostOps0_6, List.flatten_cons,
    List.flatten_nil, List.append_nil, List.cons_append, List.nil_append]
  after_results_simp
  rfl

/-- The weights the region finds are the reference's validity weights, key-point-major. -/
theorem wts_host (c : Dev nD) :
    wtsA m c = transpose S128x17x10 [0, 2, 1] (Cert.ReferenceIdeal.Read.val_main_v55 (F := Ideal) (arg1 m c))
      transposes_S128x10x17_S128x17x10_0_2_1 := by
  dsimp only [wtsA, V, V0]
  simp only [hostOps0, hostOps0_1, hostOps0_2, hostOps0_3, hostOps0_4, hostOps0_5, hostOps0_6, List.flatten_cons,
    List.flatten_nil, List.append_nil, List.cons_append, List.nil_append]
  after_results_simp
  rfl

theorem rows_at (c : Dev nD) (n : Fin 128) (k : Fin 17) (p : Fin 10) :
    rowsA m c (ix3 n k p) = Cert.ReferenceIdeal.Read.val_main_v22 (F := Ideal) (arg1 m c) (ix3 n p k) :=
  (congrFun (rows_host m c) (ix3 n k p)).trans (transpose_ix3_021_apply _ _ n k p)

theorem cols_at (c : Dev nD) (n : Fin 128) (k : Fin 17) (p : Fin 10) :
    colsA m c (ix3 n k p) = Cert.ReferenceIdeal.Read.val_main_v21 (F := Ideal) (arg1 m c) (ix3 n p k) :=
  (congrFun (cols_host m c) (ix3 n k p)).trans (transpose_ix3_021_apply _ _ n k p)

theorem wts_at (c : Dev nD) (n : Fin 128) (k : Fin 17) (p : Fin 10) :
    wtsA m c (ix3 n k p) = Cert.ReferenceIdeal.Read.val_main_v55 (F := Ideal) (arg1 m c) (ix3 n p k) :=
  (congrFun (wts_host m c) (ix3 n k p)).trans (transpose_ix3_021_apply _ _ n k p)

/-- Both coordinate arrays hold numbers below 128: they are clipped to [0, 127]. -/
theorem inRange (c : Dev nD) : InRange m c :=
  ⟨fun i => by
      obtain ⟨n, k, p, rfl⟩ : ∃ (n : Fin 128) (k : Fin 17) (p : Fin 10), i = ix3 n k p := ⟨i 0, i 1, i 2, eq_ix3 i⟩
      rw [rows_at]
      exact Ref.yc_lt _ _,
    fun i => by
      obtain ⟨n, k, p, rfl⟩ : ∃ (n : Fin 128) (k : Fin 17) (p : Fin 10), i = ix3 n k p := ⟨i 0, i 1, i 2, eq_ix3 i⟩
      rw [cols_at]
      exact Ref.xc_lt _ _⟩

/-! ## The two programs meet -/

/-- Sample `n`'s embeddings as the kernel selects them are the reference's gathered ones. -/
theorem smpV_eq (c : Dev nD) (n : Fin 128) : smpV m c (inRange m c) n = Ref.vals (arg0 m c) (arg1 m c) n := by
  funext p k
  refine (congrFun (maps_host m c) _).trans ?_
  refine Eq.trans ?_ (Ref.gather_eq (arg0 m c) (arg1 m c) n p k).symm
  exact congrArg₂ (fun a b => Cert.ReferenceIdeal.Read.val_main_v0 (F := Ideal) (arg0 m c) (ix4 n k a b))
    (Fin.ext (congrArg BitVec.toNat (rows_at m c n k p))) (Fin.ext (congrArg BitVec.toNat (cols_at m c n k p)))

/-- Sample `n`'s weights are the reference's. -/
theorem smpW_eq (c : Dev nD) (n : Fin 128) : smpW m c n = Ref.wts (arg1 m c) n := by
  funext p k
  exact wts_at m c n k p

/-- Column 0 of the kernel's result array is the reference's per-sample within loss. -/
theorem col0 (c : Dev nD) (n : Fin 128) :
    lossArr m c (inRange m c) (ix2 n (0 : Fin 2)) = Cert.ReferenceIdeal.Read.val_main_v74 (F := Ideal) (arg0 m c) (arg1 m c) (ix1 n) := by
  refine (if_pos rfl).trans ?_
  rw [smpV_eq, smpW_eq]
  exact (Ref.within_eq (arg0 m c) (arg1 m c) n).symm

/-- Column 1 is the reference's per-sample across loss. -/
theorem col1 (c : Dev nD) (n : Fin 128) :
    lossArr m c (inRange m c) (ix2 n (1 : Fin 2)) = Cert.ReferenceIdeal.Read.val_main_v112 (F := Ideal) (arg0 m c) (arg1 m c) (ix1 n) := by
  refine (if_neg Nat.one_ne_zero).trans ?_
  rw [smpV_eq, smpW_eq]
  exact (Ref.across_eq (arg0 m c) (arg1 m c) n).symm

/-! ## After the region -/

/-- The mean over the 128 samples, as both programs write it: times 1.0, summed from 0.0, divided by 128.0. -/
def meanOf (w : FVec Ideal S128 .f32) : FVec Ideal S_ .f32 :=
  Host.divf (F := Ideal)
    (Host.reduceAdd (F := Ideal) (mulf w (broadcastInDim S128 ![] bcast_S_S128 (constant (F := Ideal) S_ .f32 0x3F800000#32)))
      (constant (F := Ideal) S_ .f32 0x00000000#32) reducesTo_S128_S_d0 h_S_)
    (constant (F := Ideal) S_ .f32 0x43000000#32)

/-- The two columns of a [128, 2] array as vectors. -/
def column0 (A : S128x2.Idx → EReal) : FVec Ideal S128 .f32 :=
  shapeCast S128 (extractStridedSlice S128x1 ![0, 0] A slices_S128x2_S128x1_0_0) shapeCasts_S128x1_S128
def column1 (A : S128x2.Idx → EReal) : FVec Ideal S128 .f32 :=
  shapeCast S128 (extractStridedSlice S128x1 ![0, 1] A slices_S128x2_S128x1_0_1) shapeCasts_S128x1_S128

theorem column0_at (A : S128x2.Idx → EReal) (n : Fin 128) : column0 A (ix1 n) = A (ix2 n (0 : Fin 2)) := by
  unfold column0
  refine (shapeCast_apply _ shapeCasts_S128x1_S128 (ix1 n) (ix2 n (0 : Fin 1)) (by
    rw [Shape.rowMajor_val_one, Shape.rowMajor_val_two]
    show n.val * 1 + 0 = n.val
    omega)).trans ?_
  exact extractStridedSlice_apply _ A slices_S128x2_S128x1_0_0 (ix2 n (0 : Fin 1)) (ix2 n (0 : Fin 2)) fun a => by
    match a with
    | ⟨0, _⟩ => show n.val = 0 + n.val; omega
    | ⟨1, _⟩ => rfl

theorem column1_at (A : S128x2.Idx → EReal) (n : Fin 128) : column1 A (ix1 n) = A (ix2 n (1 : Fin 2)) := by
  unfold column1
  refine (shapeCast_apply _ shapeCasts_S128x1_S128 (ix1 n) (ix2 n (0 : Fin 1)) (by
    rw [Shape.rowMajor_val_one, Shape.rowMajor_val_two]
    show n.val * 1 + 0 = n.val
    omega)).trans ?_
  exact extractStridedSlice_apply _ A slices_S128x2_S128x1_0_1 (ix2 n (0 : Fin 1)) (ix2 n (1 : Fin 2)) fun a => by
    match a with
    | ⟨0, _⟩ => show n.val = 0 + n.val; omega
    | ⟨1, _⟩ => rfl

/-- The columns of the kernel's result array are the reference's two per-sample loss vectors. -/
theorem column0_loss (c : Dev nD) :
    column0 (lossArr m c (inRange m c)) = Cert.ReferenceIdeal.Read.val_main_v74 (F := Ideal) (arg0 m c) (arg1 m c) := by
  funext i
  obtain ⟨n, rfl⟩ : ∃ n : Fin 128, i = ix1 n := ⟨i 0, eq_ix1 i⟩
  exact (column0_at _ n).trans (col0 m c n)

theorem column1_loss (c : Dev nD) :
    column1 (lossArr m c (inRange m c)) = Cert.ReferenceIdeal.Read.val_main_v112 (F := Ideal) (arg0 m c) (arg1 m c) := by
  funext i
  obtain ⟨n, rfl⟩ : ∃ n : Fin 128, i = ix1 n := ⟨i 0, eq_ix1 i⟩
  exact (column1_at _ n).trans (col1 m c n)

/-- The reference's two results are the mean of its two per-sample loss vectors. -/
theorem ref_mean0 (x0 : S16x8x17x128x128.Idx → EReal) (x1 : S16x8x10x17x2.Idx → EReal) :
    Cert.ReferenceIdeal.Read.val_main_v116 (F := Ideal) x0 x1 = meanOf (Cert.ReferenceIdeal.Read.val_main_v74 (F := Ideal) x0 x1) := rfl
theorem ref_mean1 (x0 : S16x8x17x128x128.Idx → EReal) (x1 : S16x8x10x17x2.Idx → EReal) :
    Cert.ReferenceIdeal.Read.val_main_v120 (F := Ideal) x0 x1 = meanOf (Cert.ReferenceIdeal.Read.val_main_v112 (F := Ideal) x0 x1) := rfl

/-- The result array after the region, as the lines after it find it. -/
theorem arr_after (c : Dev nD) :
    Pipeline.withArrays spec0 c (V0 m c) (fun w => (dats m 0 c).arrAt w cfg0.N) (Proc.devRef .tc main_v27) = lossArr m c (inRange m c) :=
  (Pipeline.withArrays_arr spec0 launch0.win.arr_inj c (V0 m c) (fun w => (dats m 0 c).arrAt w cfg0.N) 4).trans (final m c (inRange m c))

/-- The kernel's program's first result is the reference's. -/
theorem res0 (c : Dev nD) :
    Pipeline.afterTail₀ cfgs (dats m) 0 (V0 m) [hostOps1] c main_v33
      = Cert.ReferenceIdeal.Read.val_main_v116 (F := Ideal) (arg0 m c) (arg1 m c) := by
  rw [ref_mean0, ← column0_loss m c, ← arr_after m c]
  unfold Pipeline.afterTail₀
  show StableHlo.after hostOps1 _ (Proc.devRef .tc main_v33) = _
  after_results
  rfl

/-- And its second result. -/
theorem res1 (c : Dev nD) :
    Pipeline.afterTail₀ cfgs (dats m) 0 (V0 m) [hostOps1] c main_v39
      = Cert.ReferenceIdeal.Read.val_main_v120 (F := Ideal) (arg0 m c) (arg1 m c) := by
  rw [ref_mean1, ← column1_loss m c, ← arr_after m c]
  unfold Pipeline.afterTail₀
  show StableHlo.after hostOps1 _ (Proc.devRef .tc main_v39) = _
  after_results
  rfl

/-! ## The run -/

/-- Every weakly fair execution of the kernel's program terminates with its two results at the reference's two
    stages of the arguments, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v33) = Cert.ReferenceIdeal.Read.val_main_v116 (F := Ideal) (arg0 m c) (arg1 m c)
      ∧ r.2.mem ((c.tc : Thread nD τ).loc main_v39) = Cert.ReferenceIdeal.Read.val_main_v120 (F := Ideal) (arg0 m c) (arg1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v33 (Pipeline.mem_restRefs_of main_v33 (by decide) (by decide))).trans (res0 m c),
     ((h c).2 main_v39 (Pipeline.mem_restRefs_of main_v39 (by decide) (by decide))).trans (res1 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.GroupLoss.Ker

end
-- ==== Proof.lean ====
/-
  The certificate of the grouping-loss kernel against its reference.

  Both programs read heat maps [16,8,17,128,128] and key-point coordinates [16,8,10,17,2]; for each of the 128 samples
  and each of its 10 persons they take, from the heat map of each of the 17 key points, the entry at the key point's
  rounded and clipped coordinates, weigh it by whether the coordinates were inside the map, and form the person's mean
  embedding, the weighted squared deviation from it (the within loss) and a hinge on the distances between the persons'
  embeddings (the across loss); the two results are the means of the two losses over the samples.

  The kernel selects an entry by a product with a 0/1 row and a masked lane sum where the reference gathers it; on the
  extended reals both are the entry itself (`0 * a = 0`, `0 + a = a` for every a, infinite or not), so the proof never
  uses that the inputs are finite. It keeps the key-point axis in the middle where the reference keeps it last, and sums
  a pair matrix in two steps where the reference sums it at once: the same finite sums. Everything else is the same
  operation on the same words in both programs, and is stated once (Proof/Spec.lean).

  The frames of the two kernel programs are the generated ones; the reference's frame is its run with the results
  dropped; the idealization rewrote nothing, so `preserves` is trivial.
-/
import proofs.«164034_j30863634989288_2_alg».proof.Defs
import proofs.«164034_j30863634989288_2_alg».proof.Proof.Gen.Kernel
import proofs.«164034_j30863634989288_2_alg».proof.Proof.Gen.Kernel.Skeleton
import proofs.«164034_j30863634989288_2_alg».proof.Proof.Gen.Kernel.Launch
import proofs.«164034_j30863634989288_2_alg».proof.Proof.Gen.Kernel.Points
import proofs.«164034_j30863634989288_2_alg».proof.Proof.Gen.Kernel.Frame
import proofs.«164034_j30863634989288_2_alg».proof.Proof.Gen.KernelIdeal
import proofs.«164034_j30863634989288_2_alg».proof.Proof.Gen.KernelIdeal.Skeleton
import proofs.«164034_j30863634989288_2_alg».proof.Proof.Gen.KernelIdeal.Launch
import proofs.«164034_j30863634989288_2_alg».proof.Proof.Gen.KernelIdeal.Points
import proofs.«164034_j30863634989288_2_alg».proof.Proof.Gen.KernelIdeal.Frame
import proofs.«164034_j30863634989288_2_alg».proof.Proof.Gen.ReferenceIdeal
import proofs.«164034_j30863634989288_2_alg».proof.Proof.Gen.Pre_finite_inputs
import proofs.«164034_j30863634989288_2_alg».proof.Proof.RefRun
import proofs.«164034_j30863634989288_2_alg».proof.Proof.RefRead
import proofs.«164034_j30863634989288_2_alg».proof.Proof.KHost
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with their two results at the reference's two stages of the (agreeing) arguments. -/
theorem algebraic : Cert.algebraic_KernelIdeal_ReferenceIdeal := by
  intro m ρ m' ρ' _ hagree
  refine ⟨_, _, Cert.GroupLoss.Ker.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v116_eq, (hagree c).1, (hagree c).2]
  · rw [Cert.ReferenceIdeal.Read.val_main_v120_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
